-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v78)) (v2 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_v80) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S200000x128 : Shape := ⟨2, ![200000, 128]⟩
abbrev S128x128 : Shape := ⟨2, ![128, 128]⟩
abbrev S128 : Shape := ⟨1, ![128]⟩
abbrev S8x128 : Shape := ⟨2, ![8, 128]⟩
abbrev S8 : Shape := ⟨1, ![8]⟩
abbrev S500000 : Shape := ⟨1, ![500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S8x128 : S_.BroadcastsInDim S8x128 (![] : Fin 0 → Fin S8x128.rank)
  reducesTo_S8x128_S_d0_1 : S8x128.ReducesTo [0, 1] S_
  bcast_S_S8 : S_.BroadcastsInDim S8 (![] : Fin 0 → Fin S8.rank)
  reducesTo_S8_S_d0 : S8.ReducesTo [0] S_

variable [Facts]

def fn_part5 {F : FTy → Type} [FloatOps F] (main_v83 : IVec S_ 1) (main_v84 : FVec F S8 .f32) (main_cst_32 : FVec F S_ .f32) : IVec S_ 1 :=
  let main_v85 : FVec F S8 .f32 := broadcastInDim S8 ![] bcast_S_S8 main_cst_32
  let main_v86 : IVec S8 1 := cmpf .olt main_v84 main_v85
  let main_c_33 : IVec S_ 1 := constantI S_ 1 1#1
  let main_v87 : IVec S_ 1 := (fun x v => Host.reduce IntOp.andi x v reducesTo_S8_S_d0 h_S_) main_v86 main_c_33
  let main_v88 : IVec S_ 1 := andi main_v83 main_v87
  main_v88

def fn_part4 {F : FTy → Type} [FloatOps F] (main_arg14 : FVec F S128x128 .f32) (main_arg15 : FVec F S128 .f32) (main_arg16 : FVec F S8x128 .f32) (main_arg17 : FVec F S8 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S8x128 .f32 := Host.absf main_arg16
  let main_cst_30 : FVec F S_ .f32 := constant S_ .f32 0x7F800000#32
  let main_v80 : FVec F S8x128 .f32 := broadcastInDim S8x128 ![] bcast_S_S8x128 main_cst_30
  let main_v81 : IVec S8x128 1 := cmpf .olt main_v79 main_v80
  let main_c_31 : IVec S_ 1 := constantI S_ 1 1#1
  let main_v82 : IVec S_ 1 := (fun x v => Host.reduce IntOp.andi x v reducesTo_S8x128_S_d0_1 h_S_) main_v81 main_c_31
  let main_v83 : IVec S_ 1 := andi main_v78 main_v82
  let main_v84 : FVec F S8 .f32 := Host.absf main_arg17
  let main_cst_32 : FVec F S_ .f32 := constant S_ .f32 0x7F800000#32
  fn_part5 (F := F) main_v83 main_v84 main_cst_32

def fn_part3 {F : FTy → Type} [FloatOps F] (main_arg11 : FVec F S128x128 .f32) (main_arg12 : FVec F S128 .f32) (main_arg13 : FVec F S128x128 .f32) (main_arg14 : FVec F S128x128 .f32) (main_arg15 : FVec F S128 .f32) (main_arg16 : FVec F S8x128 .f32) (main_arg17 : FVec F S8 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_v63 main_v67

def fn_part2 {F : FTy → Type} [FloatOps F] (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S8x128 .f32) (main_arg17 : FVec F S8 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_v48 main_v49 main_v50

def fn_part1 {F : FTy → Type} [FloatOps F] (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S8x128 .f32) (main_arg17 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S100000x128 .f32) (main_arg1 : FVec F S200000x128 .f32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S8x128 .f32) (main_arg17 : FVec F S8 .f32) (main_arg18 : IVec S500000 32) (main_arg19 : IVec S500000 32) (main_arg20 : IVec S500000 32) (main_arg21 : IVec S500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S200000x128 : Shape := ⟨2, ![200000, 128]⟩
abbrev S128x128 : Shape := ⟨2, ![128, 128]⟩
abbrev S128 : Shape := ⟨1, ![128]⟩
abbrev S8x128 : Shape := ⟨2, ![8, 128]⟩
abbrev S8 : Shape := ⟨1, ![8]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S200000 : Shape := ⟨1, ![200000]⟩
abbrev S200000x1 : Shape := ⟨2, ![200000, 1]⟩
abbrev S100000 : Shape := ⟨1, ![100000]⟩
abbrev S100000x1 : Shape := ⟨2, ![100000, 1]⟩
abbrev S2000x128 : Shape := ⟨2, ![2000, 128]⟩
abbrev S1x128 : Shape := ⟨2, ![1, 128]⟩
abbrev S100000x8 : Shape := ⟨2, ![100000, 8]⟩
abbrev S2000x8 : Shape := ⟨2, ![2000, 8]⟩
abbrev S1x8 : Shape := ⟨2, ![1, 8]⟩

abbrev nBuf : Space → Nat
  | .hbm => 127
  | .vmem => 44
  | .smem => 0
  | _ => 0

abbrev bufTy : (tb : Table) → Fin (tcTables nBuf tb) → BufTy
  | .hbm, ⟨0, _⟩ => ⟨S100000x128, .f32⟩
  | .hbm, ⟨1, _⟩ => ⟨S200000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128x128, .f32⟩
  | .hbm, ⟨15, _⟩ => ⟨S128, .f32⟩
  | .hbm, ⟨16, _⟩ => ⟨S8x128, .f32⟩
  | .hbm, ⟨17, _⟩ => ⟨S8, .f32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S500000, .i32⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000x128, .f32⟩
  | .hbm, ⟨31, _⟩ => ⟨S_, .f32⟩
  | .hbm, ⟨32, _⟩ => ⟨S200000x128, .f32⟩
  | .hbm, ⟨33, _⟩ => ⟨S500000x1, .i32⟩
  | .hbm, ⟨34, _⟩ => ⟨S200000x128, .f32⟩
  | .hbm, ⟨35, _⟩ => ⟨S_, .f32⟩
  | .hbm, ⟨36, _⟩ => ⟨S500000, .f32⟩
  | .hbm, ⟨37, _⟩ => ⟨S_, .f32⟩
  | .hbm, ⟨38, _⟩ => ⟨S200000, .f32⟩
  | .hbm, ⟨39, _⟩ => ⟨S500000x1, .i32⟩
  | .hbm, ⟨40, _⟩ => ⟨S200000, .f32⟩
  | .hbm, ⟨41, _⟩ => ⟨S_, .f32⟩
  | .hbm, ⟨42, _⟩ => ⟨S200000, .f32⟩
  | .hbm, ⟨43, _⟩ => ⟨S200000, .f32⟩
  | .hbm, ⟨44, _⟩ => ⟨S200000x1, .f32⟩
  | .hbm, ⟨45, _⟩ => ⟨S200000x128, .f32⟩
  | .hbm, ⟨46, _⟩ => ⟨S200000x128, .f32⟩
  | .hbm, ⟨47, _⟩ => ⟨S_, .i32⟩
  | .hbm, ⟨48, _⟩ => ⟨S500000, .i32⟩
  | .hbm, ⟨49, _⟩ => ⟨S500000, .i1⟩
  | .hbm, ⟨50, _⟩ => ⟨S_, .i32⟩
  | .hbm, ⟨51, _⟩ => ⟨S500000, .i32⟩
  | .hbm, ⟨52, _⟩ => ⟨S500000, .i32⟩
  | .hbm, ⟨53, _⟩ => ⟨S500000, .i32⟩
  | .hbm, ⟨54, _⟩ => ⟨S500000x1, .i32⟩
  | .hbm, ⟨55, _⟩ => ⟨S500000x128, .f32⟩
  | .hbm, ⟨56, _⟩ => ⟨S_, .f32⟩
  | .hbm, ⟨57, _⟩ => ⟨S100000x128, .f32⟩
  | .hbm, ⟨58, _⟩ => ⟨S500000x1, .i32⟩
  | .hbm, ⟨59, _⟩ => ⟨S100000x128, .f32⟩
  | .hbm, ⟨60, _⟩ => ⟨S_, .f32⟩
  | .hbm, ⟨61, _⟩ => ⟨S500000, .f32⟩
  | .hbm, ⟨62, _⟩ => ⟨S_, .f32⟩
  | .hbm, ⟨63, _⟩ => ⟨S100000, .f32⟩
  | .hbm, ⟨64, _⟩ => ⟨S500000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S200000x128, .f32⟩
  | .hbm, ⟨73, _⟩ => ⟨S100000x128, .f32⟩
  | .hbm, ⟨74, _⟩ => ⟨S_, .i32⟩
  | .hbm, ⟨75, _⟩ => ⟨S500000, .i32⟩
  | .hbm, ⟨76, _⟩ => ⟨S500000, .i1⟩
  | .hbm, ⟨77, _⟩ => ⟨S_, .i32⟩
  | .hbm, ⟨78, _⟩ => ⟨S500000, .i32⟩
  | .hbm, ⟨79, _⟩ => ⟨S500000, .i32⟩
  | .hbm, ⟨80, _⟩ => ⟨S500000, .i32⟩
  | .hbm, ⟨81, _⟩ => ⟨S500000x1, .i32⟩
  | .hbm, ⟨82, _⟩ => ⟨S500000x128, .f32⟩
  | .hbm, ⟨83, _⟩ => ⟨S_, .f32⟩
  | .hbm, ⟨84, _⟩ => ⟨S200000x128, .f32⟩
  | .hbm, ⟨85, _⟩ => ⟨S500000x1, .i32⟩
  | .hbm, ⟨86, _⟩ => ⟨S200000x128, .f32⟩
  | .hbm, ⟨87, _⟩ => ⟨S_, .f32⟩
  | .hbm, ⟨88, _⟩ => ⟨S500000, .f32⟩
  | .hbm, ⟨89, _⟩ => ⟨S_, .f32⟩
  | .hbm, ⟨90, _⟩ => ⟨S200000, .f32⟩
  | .hbm, ⟨91, _⟩ => ⟨S500000x1, .i32⟩
  | .hbm, ⟨92, _⟩ => ⟨S200000, .f32⟩
  | .hbm, ⟨93, _⟩ => ⟨S_, .f32⟩
  | .hbm, ⟨94, _⟩ => ⟨S200000, .f32⟩
  | .hbm, ⟨95, _⟩ => ⟨S200000, .f32⟩
  | .hbm, ⟨96, _⟩ => ⟨S200000x1, .f32⟩
  | .hbm, ⟨97, _⟩ => ⟨S200000x128, .f32⟩
  | .hbm, ⟨98, _⟩ => ⟨S200000x128, .f32⟩
  | .hbm, ⟨99, _⟩ => ⟨S_, .i32⟩
  | .hbm, ⟨100, _⟩ => ⟨S500000, .i32⟩
  | .hbm, ⟨101, _⟩ => ⟨S500000, .i1⟩
  | .hbm, ⟨102, _⟩ => ⟨S_, .i32⟩
  | .hbm, ⟨103, _⟩ => ⟨S500000, .i32⟩
  | .hbm, ⟨104, _⟩ => ⟨S500000, .i32⟩
  | .hbm, ⟨105, _⟩ => ⟨S500000, .i32⟩
  | .hbm, ⟨106, _⟩ => ⟨S500000x1, .i32⟩
  | .hbm, ⟨107, _⟩ => ⟨S500000x128, .f32⟩
  | .hbm, ⟨108, _⟩ => ⟨S_, .f32⟩
  | .hbm, ⟨109, _⟩ => ⟨S100000x128, .f32⟩
  | .hbm, ⟨110, _⟩ => ⟨S500000x1, .i32⟩
  | .hbm, ⟨111, _⟩ => ⟨S100000x128, .f32⟩
  | .hbm, ⟨112, _⟩ => ⟨S_, .f32⟩
  | .hbm, ⟨113, _⟩ => ⟨S500000, .f32⟩
  | .hbm, ⟨114, _⟩ => ⟨S_, .f32⟩
  | .hbm, ⟨115, _⟩ => ⟨S100000, .f32⟩
  | .hbm, ⟨116, _⟩ => ⟨S500000x1, .i32⟩
  | .hbm, ⟨117, _⟩ => ⟨S100000, .f32⟩
  | .hbm, ⟨118, _⟩ => ⟨S_, .f32⟩
  | .hbm, ⟨119, _⟩ => ⟨S100000, .f32⟩
  | .hbm, ⟨120, _⟩ => ⟨S100000, .f32⟩
  | .hbm, ⟨121, _⟩ => ⟨S100000x1, .f32⟩
  | .hbm, ⟨122, _⟩ => ⟨S100000x128, .f32⟩
  | .hbm, ⟨123, _⟩ => ⟨S100000x128, .f32⟩
  | .hbm, ⟨124, _⟩ => ⟨S200000x128, .f32⟩
  | .hbm, ⟨125, _⟩ => ⟨S100000x128, .f32⟩
  | .hbm, ⟨126, _⟩ => ⟨S100000x8, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S128x128, .f32⟩
  | .local _ .vmem, ⟨32, _⟩ => ⟨S128, .f32⟩
  | .local _ .vmem, ⟨33, _⟩ => ⟨S128x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x128, .f32⟩
  | .local _ .vmem, ⟨39, _⟩ => ⟨S128, .f32⟩
  | .local _ .vmem, ⟨40, _⟩ => ⟨S8x128, .f32⟩
  | .local _ .vmem, ⟨41, _⟩ => ⟨S8, .f32⟩
  | .local _ .vmem, ⟨42, _⟩ => ⟨S2000x8, .f32⟩
  | .local _ .vmem, ⟨43, _⟩ => ⟨S2000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst_1 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_4 : Ref sig .tc := ⟨.hbm, 47, rfl⟩
abbrev main_v19 : Ref sig .tc := ⟨.hbm, 48, rfl⟩
abbrev main_v20 : Ref sig .tc := ⟨.hbm, 49, rfl⟩
abbrev main_c_5 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_6 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_7 : Ref sig .tc := ⟨.hbm, 60, rfl⟩
abbrev main_v29 : Ref sig .tc := ⟨.hbm, 61, rfl⟩
abbrev main_cst_8 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_9 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_c_10 : Ref sig .tc := ⟨.hbm, 74, rfl⟩
abbrev main_v40 : Ref sig .tc := ⟨.hbm, 75, rfl⟩
abbrev main_v41 : Ref sig .tc := ⟨.hbm, 76, rfl⟩
abbrev main_c_11 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_12 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_13 : Ref sig .tc := ⟨.hbm, 87, rfl⟩
abbrev main_v50 : Ref sig .tc := ⟨.hbm, 88, rfl⟩
abbrev main_cst_14 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_15 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_c_16 : Ref sig .tc := ⟨.hbm, 99, rfl⟩
abbrev main_v59 : Ref sig .tc := ⟨.hbm, 100, rfl⟩
abbrev main_v60 : Ref sig .tc := ⟨.hbm, 101, rfl⟩
abbrev main_c_17 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_18 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_19 : Ref sig .tc := ⟨.hbm, 112, rfl⟩
abbrev main_v69 : Ref sig .tc := ⟨.hbm, 113, rfl⟩
abbrev main_cst_20 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_21 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S8x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S8 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x8 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S8x128_S8x128_0_0 : ∀ a, (![0, 0] : Fin 2 → Nat) a + S8x128.size a ≤ S8x128.size a
  h_S8x128 : 0 < S8x128.numel
  inb_S8_S8_0 : ∀ a, (![0] : Fin 1 → Nat) a + S8.size a ≤ S8.size a
  h_S8 : 0 < S8.numel
  shapeCasts_S8_S1x8 : S8.ShapeCasts S1x8
  broadcasts_S1x8_S2000x8 : S1x8.Broadcasts S2000x8
  inb_S2000x8_S2000x8_0_0 : ∀ a, (![0, 0] : Fin 2 → Nat) a + S2000x8.size a ≤ S2000x8.size a
  h_S2000x8 : 0 < S2000x8.numel
  gather_S100000x128_S500000x1_S500000x128_1_0_n_n_0_1_1128_wf : GatherDims.WF S100000x128 S500000x1 S500000x128 [1] [0] [] [0] [] 1 ![1, 128]
  scatter_S200000x128_S500000x1_S500000x128_1_0_0_1_wf : ScatterDims.WF S200000x128 S500000x1 S500000x128 [1] [0] [0] 1
  scatter_S200000_S500000x1_S500000_n_0_0_1_wf : ScatterDims.WF S200000 S500000x1 S500000 [] [0] [0] 1
  gather_S200000x128_S500000x1_S500000x128_1_0_n_n_0_1_1128_wf : GatherDims.WF S200000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S2000x128_S128x128_S2000x128_1_1_0_0_n_n_wf : DotDims.WF S2000x128 S128x128 S2000x128 [1] [1] [0] [0] [] []
  dot_S2000x128_S8x128_S2000x8_1_1_0_0_n_n_wf : DotDims.WF S2000x128 S8x128 S2000x8 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .f32 = 32 ∨ (Rect.block (s := S200000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S200000x128.size a
  hwx0_1 : ∀ i : grid0.Coords, EltTy.bits .f32 = 32 ∨ (Rect.block (s := S200000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S200000x128.size a
  hwx0_5 : ∀ i : grid0.Coords, EltTy.bits .f32 = 32 ∨ (Rect.block (s := S200000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S200000x128.size a
  hwx2_0 : ∀ i : grid2.Coords, EltTy.bits .f32 = 32 ∨ (Rect.block (s := S200000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S200000x128.size a
  hwx2_1 : ∀ i : grid2.Coords, EltTy.bits .f32 = 32 ∨ (Rect.block (s := S200000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S200000x128.size a
  hwx2_5 : ∀ i : grid2.Coords, EltTy.bits .f32 = 32 ∨ (Rect.block (s := S200000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S8x128.size a ≤ S8x128.size a
  hwx4_3 : ∀ i : grid4.Coords, EltTy.bits .f32 = 32 ∨ (Rect.block (s := S8x128) S8x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S8.size a ≤ S8.size a
  hwx4_4 : ∀ i : grid4.Coords, EltTy.bits .f32 = 32 ∨ (Rect.block (s := S8) S8.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x8.size a ≤ S100000x8.size a
  hwx4_5 : ∀ i : grid4.Coords, EltTy.bits .f32 = 32 ∨ (Rect.block (s := S100000x8) S2000x8.size (cc4_transform_5 i) (hinb4_5 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def scatter_S200000_S500000x1_S500000_n_0_0_1 : ScatterDims S200000 S500000x1 S500000 where
  updateWindowDims := []
  insertedWindowDims := [0]
  scatterDimsToOperandDims := [0]
  indexVectorDim := 1
  wf := scatter_S200000_S500000x1_S500000_n_0_0_1_wf
def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf
def dot_S2000x128_S8x128_S2000x8_1_1_0_0_n_n : DotDims S2000x128 S8x128 S2000x8 where
  lhsContracting := [1]
  rhsContracting := [1]
  lhsNonContracting := [0]
  rhsNonContracting := [0]
  lhsBatch := []
  rhsBatch := []
  wf := dot_S2000x128_S8x128_S2000x8_1_1_0_0_n_n_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v78) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v77) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v79) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg16) S8x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S8.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v80) S2000x8.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S200000x128 : Shape := ⟨2, ![200000, 128]⟩
abbrev S128x128 : Shape := ⟨2, ![128, 128]⟩
abbrev S128 : Shape := ⟨1, ![128]⟩
abbrev S8x128 : Shape := ⟨2, ![8, 128]⟩
abbrev S8 : Shape := ⟨1, ![8]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S200000 : Shape := ⟨1, ![200000]⟩
abbrev S200000x1 : Shape := ⟨2, ![200000, 1]⟩
abbrev S1x128 : Shape := ⟨2, ![1, 128]⟩
abbrev S100000 : Shape := ⟨1, ![100000]⟩
abbrev S100000x1 : Shape := ⟨2, ![100000, 1]⟩
abbrev S128x8 : Shape := ⟨2, ![128, 8]⟩
abbrev S100000x8 : Shape := ⟨2, ![100000, 8]⟩
abbrev S1x8 : Shape := ⟨2, ![1, 8]⟩

abbrev nBuf : Space → Nat
  | .hbm => 173
  | .vmem => 0
  | .smem => 0
  | _ => 0

abbrev hbmTy0_0 (i : Nat) : BufTy := match i % 128 with
  | 0 => ⟨S100000x128, .f32⟩
  | 1 => ⟨S200000x128, .f32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S8x128, .f32⟩
  | 17 => ⟨S8, .f32⟩
  | 18 => ⟨S500000, .i32⟩
  | 19 => ⟨S500000, .i32⟩
  | 20 => ⟨S500000, .i32⟩
  | 21 => ⟨S500000, .i32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x128, .f32⟩
  | 31 => ⟨S_, .f32⟩
  | 32 => ⟨S200000x128, .f32⟩
  | 33 => ⟨S500000x1, .i32⟩
  | 34 => ⟨S200000x128, .f32⟩
  | 35 => ⟨S_, .f32⟩
  | 36 => ⟨S500000, .f32⟩
  | 37 => ⟨S_, .f32⟩
  | 38 => ⟨S200000, .f32⟩
  | 39 => ⟨S500000x1, .i32⟩
  | 40 => ⟨S200000, .f32⟩
  | 41 => ⟨S_, .f32⟩
  | 42 => ⟨S200000, .f32⟩
  | 43 => ⟨S200000, .f32⟩
  | 44 => ⟨S200000x1, .f32⟩
  | 45 => ⟨S200000x128, .f32⟩
  | 46 => ⟨S200000x128, .f32⟩
  | 47 => ⟨S128x128, .f32⟩
  | 48 => ⟨S200000x128, .f32⟩
  | 49 => ⟨S1x128, .f32⟩
  | 50 => ⟨S200000x128, .f32⟩
  | 51 => ⟨S200000x128, .f32⟩
  | 52 => ⟨S128x128, .f32⟩
  | 53 => ⟨S200000x128, .f32⟩
  | 54 => ⟨S200000x128, .f32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S500000x128, .f32⟩
  | 64 => ⟨S_, .f32⟩
  | 65 => ⟨S100000x128, .f32⟩
  | 66 => ⟨S500000x1, .i32⟩
  | 67 => ⟨S100000x128, .f32⟩
  | 68 => ⟨S_, .f32⟩
  | 69 => ⟨S500000, .f32⟩
  | 70 => ⟨S_, .f32⟩
  | 71 => ⟨S100000, .f32⟩
  | 72 => ⟨S500000x1, .i32⟩
  | 73 => ⟨S100000, .f32⟩
  | 74 => ⟨S_, .f32⟩
  | 75 => ⟨S100000, .f32⟩
  | 76 => ⟨S100000, .f32⟩
  | 77 => ⟨S100000x1, .f32⟩
  | 78 => ⟨S100000x128, .f32⟩
  | 79 => ⟨S100000x128, .f32⟩
  | 80 => ⟨S128x128, .f32⟩
  | 81 => ⟨S100000x128, .f32⟩
  | 82 => ⟨S1x128, .f32⟩
  | 83 => ⟨S100000x128, .f32⟩
  | 84 => ⟨S100000x128, .f32⟩
  | 85 => ⟨S128x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S_, .f32⟩
  | 92 => ⟨S200000x128, .f32⟩
  | 93 => ⟨S200000x128, .f32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000x128, .f32⟩
  | 103 => ⟨S_, .f32⟩
  | 104 => ⟨S200000x128, .f32⟩
  | 105 => ⟨S500000x1, .i32⟩
  | 106 => ⟨S200000x128, .f32⟩
  | 107 => ⟨S_, .f32⟩
  | 108 => ⟨S500000, .f32⟩
  | 109 => ⟨S_, .f32⟩
  | 110 => ⟨S200000, .f32⟩
  | 111 => ⟨S500000x1, .i32⟩
  | 112 => ⟨S200000, .f32⟩
  | 113 => ⟨S_, .f32⟩
  | 114 => ⟨S200000, .f32⟩
  | 115 => ⟨S200000, .f32⟩
  | 116 => ⟨S200000x1, .f32⟩
  | 117 => ⟨S200000x128, .f32⟩
  | 118 => ⟨S200000x128, .f32⟩
  | 119 => ⟨S128x128, .f32⟩
  | 120 => ⟨S200000x128, .f32⟩
  | 121 => ⟨S1x128, .f32⟩
  | 122 => ⟨S200000x128, .f32⟩
  | 123 => ⟨S200000x128, .f32⟩
  | 124 => ⟨S128x128, .f32⟩
  | 125 => ⟨S200000x128, .f32⟩
  | 126 => ⟨S200000x128, .f32⟩
  | 127 => ⟨S_, .i32⟩
  | _ => ⟨S100000x128, .f32⟩

abbrev hbmTy0_1 (i : Nat) : BufTy := match i % 128 with
  | 0 => ⟨S500000, .i32⟩
  | 1 => ⟨S500000, .i1⟩
  | 2 => ⟨S_, .i32⟩
  | 3 => ⟨S500000, .i32⟩
  | 4 => ⟨S500000, .i32⟩
  | 5 => ⟨S500000, .i32⟩
  | 6 => ⟨S500000x1, .i32⟩
  | 7 => ⟨S500000x128, .f32⟩
  | 8 => ⟨S_, .f32⟩
  | 9 => ⟨S100000x128, .f32⟩
  | 10 => ⟨S500000x1, .i32⟩
  | 11 => ⟨S100000x128, .f32⟩
  | 12 => ⟨S_, .f32⟩
  | 13 => ⟨S500000, .f32⟩
  | 14 => ⟨S_, .f32⟩
  | 15 => ⟨S100000, .f32⟩
  | 16 => ⟨S500000x1, .i32⟩
  | 17 => ⟨S100000, .f32⟩
  | 18 => ⟨S_, .f32⟩
  | 19 => ⟨S100000, .f32⟩
  | 20 => ⟨S100000, .f32⟩
  | 21 => ⟨S100000x1, .f32⟩
  | 22 => ⟨S100000x128, .f32⟩
  | 23 => ⟨S100000x128, .f32⟩
  | 24 => ⟨S128x128, .f32⟩
  | 25 => ⟨S100000x128, .f32⟩
  | 26 => ⟨S1x128, .f32⟩
  | 27 => ⟨S100000x128, .f32⟩
  | 28 => ⟨S100000x128, .f32⟩
  | 29 => ⟨S128x128, .f32⟩
  | 30 => ⟨S100000x128, .f32⟩
  | 31 => ⟨S100000x128, .f32⟩
  | 32 => ⟨S128x128, .f32⟩
  | 33 => ⟨S100000x128, .f32⟩
  | 34 => ⟨S1x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S128x8, .f32⟩
  | 41 => ⟨S100000x8, .f32⟩
  | 42 => ⟨S1x8, .f32⟩
  | 43 => ⟨S100000x8, .f32⟩
  | 44 => ⟨S100000x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst_1 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_4 : Ref sig .tc := ⟨.hbm, 55, rfl⟩
abbrev main_v27 : Ref sig .tc := ⟨.hbm, 56, rfl⟩
abbrev main_v28 : Ref sig .tc := ⟨.hbm, 57, rfl⟩
abbrev main_c_5 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_6 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_7 : Ref sig .tc := ⟨.hbm, 68, rfl⟩
abbrev main_v37 : Ref sig .tc := ⟨.hbm, 69, rfl⟩
abbrev main_cst_8 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_9 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_call0_cst : Ref sig .tc := ⟨.hbm, 88, rfl⟩
abbrev main_call0_v0 : Ref sig .tc := ⟨.hbm, 89, rfl⟩
abbrev main_v54 : Ref sig .tc := ⟨.hbm, 90, rfl⟩
abbrev main_call1_cst : Ref sig .tc := ⟨.hbm, 91, rfl⟩
abbrev main_call1_v0 : Ref sig .tc := ⟨.hbm, 92, rfl⟩
abbrev main_v55 : Ref sig .tc := ⟨.hbm, 93, rfl⟩
abbrev main_c_10 : Ref sig .tc := ⟨.hbm, 94, rfl⟩
abbrev main_v56 : Ref sig .tc := ⟨.hbm, 95, rfl⟩
abbrev main_v57 : Ref sig .tc := ⟨.hbm, 96, rfl⟩
abbrev main_c_11 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_12 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_13 : Ref sig .tc := ⟨.hbm, 107, rfl⟩
abbrev main_v66 : Ref sig .tc := ⟨.hbm, 108, rfl⟩
abbrev main_cst_14 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_15 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_c_16 : Ref sig .tc := ⟨.hbm, 127, rfl⟩
abbrev main_v83 : Ref sig .tc := ⟨.hbm, 128, rfl⟩
abbrev main_v84 : Ref sig .tc := ⟨.hbm, 129, rfl⟩
abbrev main_c_17 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_18 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_19 : Ref sig .tc := ⟨.hbm, 140, rfl⟩
abbrev main_v93 : Ref sig .tc := ⟨.hbm, 141, rfl⟩
abbrev main_cst_20 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_cst_21 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_call2_cst : Ref sig .tc := ⟨.hbm, 165, rfl⟩
abbrev main_call2_v0 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  transposes_S128x128_S128x128_1_0 : S128x128.Transposes [1, 0] S128x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  transposes_S8x128_S128x8_1_0 : S8x128.Transposes [1, 0] S128x8
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  gather_S100000x128_S500000x1_S500000x128_1_0_n_n_0_1_1128_wf : GatherDims.WF S100000x128 S500000x1 S500000x128 [1] [0] [] [0] [] 1 ![1, 128]
  scatter_S200000x128_S500000x1_S500000x128_1_0_0_1_wf : ScatterDims.WF S200000x128 S500000x1 S500000x128 [1] [0] [0] 1
  scatter_S200000_S500000x1_S500000_n_0_0_1_wf : ScatterDims.WF S200000 S500000x1 S500000 [] [0] [0] 1
  dot_S200000x128_S128x128_S200000x128_1_0_0_1_n_n_wf : DotDims.WF S200000x128 S128x128 S200000x128 [1] [0] [0] [1] [] []
  gather_S200000x128_S500000x1_S500000x128_1_0_n_n_0_1_1128_wf : GatherDims.WF S200000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x128_S100000x128_1_0_0_1_n_n_wf : DotDims.WF S100000x128 S128x128 S100000x128 [1] [0] [0] [1] [] []
  dot_S100000x128_S128x8_S100000x8_1_0_0_1_n_n_wf : DotDims.WF S100000x128 S128x8 S100000x8 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def scatter_S200000_S500000x1_S500000_n_0_0_1 : ScatterDims S200000 S500000x1 S500000 where
  updateWindowDims := []
  insertedWindowDims := [0]
  scatterDimsToOperandDims := [0]
  indexVectorDim := 1
  wf := scatter_S200000_S500000x1_S500000_n_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf

class Facts : Prop extends Facts₀ where

variable [Facts]
-- ==== Proof.KRun.lean ====
/-
  The idealized kernel program's run with its final memory kept.

  The program is seven segments — a stretch of host operations, two tiled layer kernels, a second stretch of host
  operations, two more layer kernels and the head kernel.  Every weakly fair execution terminates, and every
  buffer that outlives the kernels ends at the contents obtained by folding the segments over the launch
  memory (`Gen.W7`): a host stretch applies its operations, a kernel replaces its output array by what its grid
  points wrote back and leaves every other buffer alone.  The frame claim keeps of this only that the arguments
  are unchanged; here the whole final valuation is kept, so that the three results can be read off it.
-/
import proofs.«150708_j2001454760082_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every buffer that outlives the
    kernels at the fold of the segments over the launch memory. -/
theorem run_mem : θ_run defs (onTc (τ := τ) (main (F := F))) ⟨m, fun _ => 0, ρ⟩ (fun r => ∀ c : Dev nD,
    ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- A result buffer of the program read off the final memory. -/
theorem run_at (b : Ref sig .tc) (hb : ¬ (Proc.devRef .tc b : DevRef τ sig).isScoped)
    {r : PUnit × MemSt nD τ sig (Elt F)}
    (h : ∀ c : Dev nD, ∀ b ∈ Pipeline.ucRefs τ sig, r.2.mem (((c : Thread nD τ)).1, b) = W7 m ρ c b) (c : Dev nD) :
    r.2.mem ((c : Thread nD τ).loc b) = W7 m ρ c (Proc.devRef .tc b) :=
  h c _ (mem_uc b hb)

end Cert.KernelIdeal.Whole

end
-- ==== Proof.Layer.lean ====
/-
  The dense part of the network, as plain functions on arrays of extended reals.

  A SAGE layer's dense combine of a row block is, entry (p, q),
      (Σₖ a(p,k)·wl(q,k) + b(q)) + Σₖ x(p,k)·wr(q,k)
  — the aggregated neighbour means `a` times the TRANSPOSED weight `wl`, plus the bias, plus the node's own
  features `x` times the transposed weight `wr` — optionally followed by a floor at a fixed value (the rectifier).
  The head is two such affine maps with a floor between them.  Every entry of a result depends on row `p` of
  the row operands only, so a block of rows of the result is the same function of that block of rows
  (`lin_rows`, `head_rows`): this is what lets a kernel compute the layer tile by tile.
-/
import Idealize.ShloMosaic.PureOps.Ideal
import Idealize.ShloMosaic.PureOps.Ideal.Laws
import Idealize.ShloMosaic.Lib.ValueIdx

noncomputable section

namespace SageNet

open Idealize.ShloMosaic Idealize.ShloMosaic.ValueIdx

/-- An `[M, N]` array of extended reals. -/
abbrev Arr2 (M N : ℕ) : Type := (⟨2, ![M, N]⟩ : Shape).Idx → EReal
/-- An `[N]` array of extended reals. -/
abbrev Arr1 (N : ℕ) : Type := (⟨1, ![N]⟩ : Shape).Idx → EReal

/-- `x · wᵀ`: entry `(p, q)` is `Σₖ x(p,k)·w(q,k)`. -/
def dotT {M K N : ℕ} (x : Arr2 M K) (w : Arr2 N K) : Arr2 M N :=
  fun i => ∑ k : Fin K, x (ix2 (i 0) k) * w (ix2 (i 1) k)

/-- `x · wᵀ + b`, the bias added to every row. -/
def affT {M K N : ℕ} (x : Arr2 M K) (w : Arr2 N K) (b : Arr1 N) : Arr2 M N :=
  fun i => dotT x w i + b (ix1 (i 1))

/-- The dense combine of one layer: `(a · wlᵀ + b) + x · wrᵀ`. -/
def lin {M K N : ℕ} (a x : Arr2 M K) (wl : Arr2 N K) (b : Arr1 N) (wr : Arr2 N K) : Arr2 M N :=
  fun i => affT a wl b i + dotT x wr i

/-- Every entry floored at `z`. -/
def floorAt {S : Shape} (z : EReal) (y : S.Idx → EReal) : S.Idx → EReal := fun i => max (y i) z

/-- The head: `floor(x · a1ᵀ + b1) · a2ᵀ + b2`. -/
def head {M K N C : ℕ} (z : EReal) (x : Arr2 M K) (a1 : Arr2 N K) (b1 : Arr1 N) (a2 : Arr2 C N) (b2 : Arr1 C) : Arr2 M C :=
  affT (floorAt z (affT x a1 b1)) a2 b2

/-- Rows `o, o+1, …, o+R-1` of an array. -/
def rows {M N : ℕ} (R o : ℕ) (h : o + R ≤ M) (x : Arr2 M N) : Arr2 R N :=
  fun i => x (ix2 ⟨o + (i 0).val, by have := idx2_lt0 i; omega⟩ (i 1))

theorem dotT_rows {M K N : ℕ} (R o : ℕ) (h : o + R ≤ M) (x : Arr2 M K) (w : Arr2 N K) :
    rows R o h (dotT x w) = dotT (rows R o h x) w := rfl

theorem affT_rows {M K N : ℕ} (R o : ℕ) (h : o + R ≤ M) (x : Arr2 M K) (w : Arr2 N K) (b : Arr1 N) :
    rows R o h (affT x w b) = affT (rows R o h x) w b := rfl

/-- A block of rows of the dense combine is the dense combine of that block of rows. -/
theorem lin_rows {M K N : ℕ} (R o : ℕ) (h : o + R ≤ M) (a x : Arr2 M K) (wl : Arr2 N K) (b : Arr1 N) (wr : Arr2 N K) :
    rows R o h (lin a x wl b wr) = lin (rows R o h a) (rows R o h x) wl b wr := rfl

theorem floorAt_rows {M N : ℕ} (R o : ℕ) (h : o + R ≤ M) (z : EReal) (y : Arr2 M N) :
    rows R o h (floorAt z y) = floorAt z (rows R o h y) := rfl

/-- A block of rows of the head is the head of that block of rows. -/
theorem head_rows {M K N C : ℕ} (R o : ℕ) (h : o + R ≤ M) (z : EReal) (x : Arr2 M K) (a1 : Arr2 N K) (b1 : Arr1 N)
    (a2 : Arr2 C N) (b2 : Arr1 C) :
    rows R o h (head z x a1 b1 a2 b2) = head z (rows R o h x) a1 b1 a2 b2 := rfl

end SageNet

end
-- ==== Proof.KBody.lean ====
/-
  What one tile of each kernel computes, at the extended reals.

  A layer kernel loads a 2000-row tile of the aggregated means and of the node features, the two 128×128
  weights and the bias, rounds the matrix operands to bf16 (the identity on extended reals), and stores
      matmul(means, Wl) + bias + matmul(features, Wr)      (then a maximum with zero in the first layer),
  where the matrix unit contracts axis 1 of BOTH operands: entry (p, q) is Σₖ left(p,k)·right(q,k) — the product
  with the transposed weight.  So the stored tile is `SageNet.lin` of the loaded tiles (floored at the zero word's
  value in layer 1), and the head kernel's tile is `SageNet.head` of its loaded tile.
-/
import proofs.«150708_j2001454760082_1_alg».proof.Proof.Gen.KernelIdeal.Skeleton
import proofs.«150708_j2001454760082_1_alg».proof.Proof.Layer
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen SageNet
open Idealize.ShloMosaic Idealize.ShloMosaic.ValueIdx

/-- The left operand is read on output row `i 0`, the right operand on output column `i 1` (its own axis 0). -/
theorem mm128_lhs0 (i : S2000x128.Idx) (q : dot_S2000x128_S128x128_S2000x128_1_1_0_0_n_n.contr.Idx) :
    (dot_S2000x128_S128x128_S2000x128_1_1_0_0_n_n.lhsIdx i q 0).val = (i 0).val := by
  unfold DotDims.lhsIdx
  rw [dif_neg (show ¬(0 : Fin S2000x128.rank) ∈ dot_S2000x128_S128x128_S2000x128_1_1_0_0_n_n.lhsBatch by decide),
    dif_pos (show (0 : Fin S2000x128.rank) ∈ dot_S2000x128_S128x128_S2000x128_1_1_0_0_n_n.lhsNonContracting by decide)]
  rfl
theorem mm128_rhs0 (i : S2000x128.Idx) (q : dot_S2000x128_S128x128_S2000x128_1_1_0_0_n_n.contr.Idx) :
    (dot_S2000x128_S128x128_S2000x128_1_1_0_0_n_n.rhsIdx i q 0).val = (i 1).val := by
  unfold DotDims.rhsIdx
  rw [dif_neg (show ¬(0 : Fin S128x128.rank) ∈ dot_S2000x128_S128x128_S2000x128_1_1_0_0_n_n.rhsBatch by decide),
    dif_pos (show (0 : Fin S128x128.rank) ∈ dot_S2000x128_S128x128_S2000x128_1_1_0_0_n_n.rhsNonContracting by decide)]
  rfl

/-- The matrix unit on a [2000,128] tile and a [128,128] weight, into zeros: the product with the transposed
    weight. -/
theorem mm128 (l : FVec Ideal S2000x128 .bf16) (r : FVec Ideal S128x128 .bf16) (i : S2000x128.Idx) :
    matmul dot_S2000x128_S128x128_S2000x128_1_1_0_0_n_n none l r (constant (F := Ideal) S2000x128 .f32 0x00000000#32) i
      = dotT (M := 2000) (K := 128) (N := 128) l r i := by
  refine (Ideal.matmul_constant_zero_apply dot_S2000x128_S128x128_S2000x128_1_1_0_0_n_n none l r i).trans ?_
  rw [← Equiv.sum_comp (contrEquiv1 dot_S2000x128_S128x128_S2000x128_1_1_0_0_n_n 128 rfl rfl).symm]
  refine Finset.sum_congr rfl fun k _ => ?_
  have hk := contrEquiv1_symm_val dot_S2000x128_S128x128_S2000x128_1_1_0_0_n_n 128 rfl rfl k
  have el : dot_S2000x128_S128x128_S2000x128_1_1_0_0_n_n.lhsIdx i
      ((contrEquiv1 dot_S2000x128_S128x128_S2000x128_1_1_0_0_n_n 128 rfl rfl).symm k) = ix2 (i 0) k :=
    funext fun a => Fin.ext (by
      match a with
      | ⟨0, _⟩ => exact mm128_lhs0 _ _
      | ⟨1, _⟩ => exact (dot_S2000x128_S128x128_S2000x128_1_1_0_0_n_n.lhsIdx_val_of_single rfl i _).trans hk)
  have er : dot_S2000x128_S128x128_S2000x128_1_1_0_0_n_n.rhsIdx i
      ((contrEquiv1 dot_S2000x128_S128x128_S2000x128_1_1_0_0_n_n 128 rfl rfl).symm k) = ix2 (i 1) k :=
    funext fun a => Fin.ext (by
      match a with
      | ⟨0, _⟩ => exact mm128_rhs0 _ _
      | ⟨1, _⟩ => exact (dot_S2000x128_S128x128_S2000x128_1_1_0_0_n_n.rhsIdx_val_of_single rfl i _).trans hk)
  rw [el, er]
  rfl

/-- The left operand is read on output row `i 0`, the right operand on output column `i 1` (its own axis 0). -/
theorem mm8_lhs0 (i : S2000x8.Idx) (q : dot_S2000x128_S8x128_S2000x8_1_1_0_0_n_n.contr.Idx) :
    (dot_S2000x128_S8x128_S2000x8_1_1_0_0_n_n.lhsIdx i q 0).val = (i 0).val := by
  unfold DotDims.lhsIdx
  rw [dif_neg (show ¬(0 : Fin S2000x128.rank) ∈ dot_S2000x128_S8x128_S2000x8_1_1_0_0_n_n.lhsBatch by decide),
    dif_pos (show (0 : Fin S2000x128.rank) ∈ dot_S2000x128_S8x128_S2000x8_1_1_0_0_n_n.lhsNonContracting by decide)]
  rfl
theorem mm8_rhs0 (i : S2000x8.Idx) (q : dot_S2000x128_S8x128_S2000x8_1_1_0_0_n_n.contr.Idx) :
    (dot_S2000x128_S8x128_S2000x8_1_1_0_0_n_n.rhsIdx i q 0).val = (i 1).val := by
  unfold DotDims.rhsIdx
  rw [dif_neg (show ¬(0 : Fin S8x128.rank) ∈ dot_S2000x128_S8x128_S2000x8_1_1_0_0_n_n.rhsBatch by decide),
    dif_pos (show (0 : Fin S8x128.rank) ∈ dot_S2000x128_S8x128_S2000x8_1_1_0_0_n_n.rhsNonContracting by decide)]
  rfl

/-- The matrix unit on a [2000,128] tile and the [8,128] output weight, into zeros. -/
theorem mm8 (l : FVec Ideal S2000x128 .bf16) (r : FVec Ideal S8x128 .bf16) (i : S2000x8.Idx) :
    matmul dot_S2000x128_S8x128_S2000x8_1_1_0_0_n_n none l r (constant (F := Ideal) S2000x8 .f32 0x00000000#32) i
      = dotT (M := 2000) (K := 128) (N := 8) l r i := by
  refine (Ideal.matmul_constant_zero_apply dot_S2000x128_S8x128_S2000x8_1_1_0_0_n_n none l r i).trans ?_
  rw [← Equiv.sum_comp (contrEquiv1 dot_S2000x128_S8x128_S2000x8_1_1_0_0_n_n 128 rfl rfl).symm]
  refine Finset.sum_congr rfl fun k _ => ?_
  have hk := contrEquiv1_symm_val dot_S2000x128_S8x128_S2000x8_1_1_0_0_n_n 128 rfl rfl k
  have el : dot_S2000x128_S8x128_S2000x8_1_1_0_0_n_n.lhsIdx i
      ((contrEquiv1 dot_S2000x128_S8x128_S2000x8_1_1_0_0_n_n 128 rfl rfl).symm k) = ix2 (i 0) k :=
    funext fun a => Fin.ext (by
      match a with
      | ⟨0, _⟩ => exact mm8_lhs0 _ _
      | ⟨1, _⟩ => exact (dot_S2000x128_S8x128_S2000x8_1_1_0_0_n_n.lhsIdx_val_of_single rfl i _).trans hk)
  have er : dot_S2000x128_S8x128_S2000x8_1_1_0_0_n_n.rhsIdx i
      ((contrEquiv1 dot_S2000x128_S8x128_S2000x8_1_1_0_0_n_n 128 rfl rfl).symm k) = ix2 (i 1) k :=
    funext fun a => Fin.ext (by
      match a with
      | ⟨0, _⟩ => exact mm8_rhs0 _ _
      | ⟨1, _⟩ => exact (dot_S2000x128_S8x128_S2000x8_1_1_0_0_n_n.rhsIdx_val_of_single rfl i _).trans hk)
  rw [el, er]
  rfl

/-- The bias row: a [128] vector cast to [1,128] and broadcast over 2000 rows reads, at (p, q), entry q. -/
theorem bias128 (b : Vec Ideal S128 .f32) (p : Fin 2000) (q : Fin 128) :
    broadcastTo S2000x128 (shapeCast S1x128 b shapeCasts_S128_S1x128) broadcasts_S1x128_S2000x128 (ix2 p q) = b (ix1 q) := by
  rw [broadcastTo_1b_ab_apply, shapeCast_a_1a_apply]

/-- The same for the head's [8] output bias. -/
theorem bias8 (b : Vec Ideal S8 .f32) (p : Fin 2000) (q : Fin 8) :
    broadcastTo S2000x8 (shapeCast S1x8 b shapeCasts_S8_S1x8) broadcasts_S1x8_S2000x8 (ix2 p q) = b (ix1 q) := by
  rw [broadcastTo_1b_ab_apply, shapeCast_a_1a_apply]

/-- The zero word's value: the floor of the rectifier. -/
abbrev zeroWord : EReal := Ideal.ofBits .f32 0x00000000#32

/-- A first-layer tile: the dense combine floored at zero. -/
theorem pay_floor0 (a x : Vec Ideal S2000x128 .f32) (wl wr : Vec Ideal S128x128 .f32) (b : Vec Ideal S128 .f32) :
    k0_pay1 (F := Ideal) a x wl wr b = floorAt zeroWord (lin (M := 2000) (K := 128) (N := 128) a x wl b wr) := by
  funext i
  obtain ⟨p, q, rfl⟩ : ∃ (p : Fin 2000) (q : Fin 128), i = ix2 p q := ⟨i 0, i 1, eq_ix2 i⟩
  unfold k0_pay1
  simp only [shapeCast_self]
  show max ((matmul _ none _ _ _ (ix2 p q) + broadcastTo _ _ _ (ix2 p q)) + matmul _ none _ _ _ (ix2 p q)) _ = _
  rw [mm128, mm128, bias128]
  rfl

theorem pay_floor1 (a x : Vec Ideal S2000x128 .f32) (wl wr : Vec Ideal S128x128 .f32) (b : Vec Ideal S128 .f32) :
    k1_pay1 (F := Ideal) a x wl wr b = floorAt zeroWord (lin (M := 2000) (K := 128) (N := 128) a x wl b wr) := by
  funext i
  obtain ⟨p, q, rfl⟩ : ∃ (p : Fin 2000) (q : Fin 128), i = ix2 p q := ⟨i 0, i 1, eq_ix2 i⟩
  unfold k1_pay1
  simp only [shapeCast_self]
  show max ((matmul _ none _ _ _ (ix2 p q) + broadcastTo _ _ _ (ix2 p q)) + matmul _ none _ _ _ (ix2 p q)) _ = _
  rw [mm128, mm128, bias128]
  rfl

/-- A second-layer tile: the dense combine. -/
theorem pay_lin2 (a x : Vec Ideal S2000x128 .f32) (wl wr : Vec Ideal S128x128 .f32) (b : Vec Ideal S128 .f32) :
    k2_pay1 (F := Ideal) a x wl wr b = lin (M := 2000) (K := 128) (N := 128) a x wl b wr := by
  funext i
  obtain ⟨p, q, rfl⟩ : ∃ (p : Fin 2000) (q : Fin 128), i = ix2 p q := ⟨i 0, i 1, eq_ix2 i⟩
  unfold k2_pay1
  simp only [shapeCast_self]
  show (matmul _ none _ _ _ (ix2 p q) + broadcastTo _ _ _ (ix2 p q)) + matmul _ none _ _ _ (ix2 p q) = _
  rw [mm128, mm128, bias128]
  rfl

theorem pay_lin3 (a x : Vec Ideal S2000x128 .f32) (wl wr : Vec Ideal S128x128 .f32) (b : Vec Ideal S128 .f32) :
    k3_pay1 (F := Ideal) a x wl wr b = lin (M := 2000) (K := 128) (N := 128) a x wl b wr := by
  funext i
  obtain ⟨p, q, rfl⟩ : ∃ (p : Fin 2000) (q : Fin 128), i = ix2 p q := ⟨i 0, i 1, eq_ix2 i⟩
  unfold k3_pay1
  simp only [shapeCast_self]
  show (matmul _ none _ _ _ (ix2 p q) + broadcastTo _ _ _ (ix2 p q)) + matmul _ none _ _ _ (ix2 p q) = _
  rw [mm128, mm128, bias128]
  rfl

/-- The hidden tile of the head: the first affine map floored at zero. -/
theorem hidden_tile (x : Vec Ideal S2000x128 .f32) (a1 : Vec Ideal S128x128 .f32) (b1 : Vec Ideal S128 .f32) :
    maximumf (addf (matmul dot_S2000x128_S128x128_S2000x128_1_1_0_0_n_n none
          (truncf .bf16 x bitsLt_bf16_f32) (truncf .bf16 a1 bitsLt_bf16_f32) (constant (F := Ideal) S2000x128 .f32 0x00000000#32))
        (broadcastTo S2000x128 (shapeCast S1x128 b1 shapeCasts_S128_S1x128) broadcasts_S1x128_S2000x128))
      (broadcast S2000x128 (Scalar.ofBits (F := Ideal) .f32 0x00000000#32))
      = floorAt zeroWord (affT (M := 2000) (K := 128) (N := 128) x a1 b1) := by
  funext i
  obtain ⟨p, q, rfl⟩ : ∃ (p : Fin 2000) (q : Fin 128), i = ix2 p q := ⟨i 0, i 1, eq_ix2 i⟩
  show max (matmul _ none _ _ _ (ix2 p q) + broadcastTo _ _ _ (ix2 p q)) _ = _
  rw [mm128, bias128]
  rfl

/-- The head's tile. -/
theorem pay_head (x : Vec Ideal S2000x128 .f32) (a1 : Vec Ideal S128x128 .f32) (b1 : Vec Ideal S128 .f32)
    (a2 : Vec Ideal S8x128 .f32) (b2 : Vec Ideal S8 .f32) :
    k4_pay1 (F := Ideal) x a1 b1 a2 b2 = head (M := 2000) (K := 128) (N := 128) (C := 8) zeroWord x a1 b1 a2 b2 := by
  funext i
  obtain ⟨p, q, rfl⟩ : ∃ (p : Fin 2000) (q : Fin 8), i = ix2 p q := ⟨i 0, i 1, eq_ix2 i⟩
  unfold k4_pay1
  simp only [shapeCast_self]
  rw [hidden_tile]
  show matmul _ none _ _ _ (ix2 p q) + broadcastTo _ _ _ (ix2 p q) = _
  rw [mm8, bias8]
  rfl

end Cert.KernelIdeal.Tile

end
-- ==== Proof.KRegion0.lean ====
/-
  The first kernel: layer 1 on the 200000 variant nodes, tiled over 100 blocks of 2000 rows.
  Each point loads its block of rows of the two row operands and the whole weights and bias, and writes back the
  dense combine of those rows; since an entry of the combine depends on its own row only, the blocks written
  back are the blocks of ONE array, the combine of the whole operands, and together they cover it.
-/
import proofs.«150708_j2001454760082_1_alg».proof.Proof.Gen.KernelIdeal.Frame
import proofs.«150708_j2001454760082_1_alg».proof.Proof.KBody

set_option maxRecDepth 16384

noncomputable section

namespace Cert.KernelIdeal.Region0

open Cert.KernelIdeal Cert.KernelIdeal.Gen Cert.KernelIdeal.Tile SageNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The grid has 100 points. -/
theorem lt_N : ∀ t : Fin cfg0.N, t.val < 100 := (by decide +kernel : ∀ t : Fin grid0.N, _)

theorem hrow (t : Fin cfg0.N) : t.val * 2000 + 2000 ≤ 200000 := by have := lt_N t; omega

/-- The index maps, decided over the grid: the row-tiled windows sit at block row `t`, the others at block 0. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 1) = 0
    ∧ win0_4.index t (0 : Fin 2) = 0
    ∧ win0_4.index t (1 : Fin 2) = 0
    ∧ win0_5.index t (0 : Fin 2) = t.val
    ∧ win0_5.index t (1 : Fin 2) = 0 :=
  (by decide +kernel : ∀ t : Fin grid0.N, _)

/-- Window 0's block at point `t` is rows `2000·t … 2000·t + 1999` of its array. -/
theorem iblk_0 (c : Dev nD) (t : Fin cfg0.N) :
    (iblk0 V c 0 t : S2000x128.Idx → EReal) = rows 2000 (t.val * 2000) (hrow t) (V c main_v18 : S200000x128.Idx → EReal) := by
  obtain ⟨f0, f1, f2, f3, f4, f5, f6, f7, f8, f9, f10⟩ := idx_facts t
  funext j
  show (V c main_v18 : S200000x128.Idx → EReal) (((cfg0.win 0).blk t).view.emb j) = (V c main_v18 : S200000x128.Idx → EReal) _
  refine congrArg _ (funext fun a => Fin.ext ?_)
  match a with
  | ⟨0, _⟩ => show win0_0.index t (0 : Fin 2) * 2000 + 1 * (j 0).val = t.val * 2000 + (j 0).val; omega
  | ⟨1, _⟩ => show win0_0.index t (1 : Fin 2) * 128 + 1 * (j 1).val = (j 1).val; omega

/-- Window 1's block at point `t` is rows `2000·t … 2000·t + 1999` of its array. -/
theorem iblk_1 (c : Dev nD) (t : Fin cfg0.N) :
    (iblk0 V c 1 t : S2000x128.Idx → EReal) = rows 2000 (t.val * 2000) (hrow t) (V c main_arg1 : S200000x128.Idx → EReal) := by
  obtain ⟨f0, f1, f2, f3, f4, f5, f6, f7, f8, f9, f10⟩ := idx_facts t
  funext j
  show (V c main_arg1 : S200000x128.Idx → EReal) (((cfg0.win 1).blk t).view.emb j) = (V c main_arg1 : S200000x128.Idx → EReal) _
  refine congrArg _ (funext fun a => Fin.ext ?_)
  match a with
  | ⟨0, _⟩ => show win0_1.index t (0 : Fin 2) * 2000 + 1 * (j 0).val = t.val * 2000 + (j 0).val; omega
  | ⟨1, _⟩ => show win0_1.index t (1 : Fin 2) * 128 + 1 * (j 1).val = (j 1).val; omega

/-- Window 2 is fetched whole at every point. -/
theorem iblk_2 (c : Dev nD) (t : Fin cfg0.N) :
    (iblk0 V c 2 t : S128x128.Idx → EReal) = (V c main_arg2 : S128x128.Idx → EReal) := by
  obtain ⟨f0, f1, f2, f3, f4, f5, f6, f7, f8, f9, f10⟩ := idx_facts t
  funext j
  show (V c main_arg2 : S128x128.Idx → EReal) (((cfg0.win 2).blk t).view.emb j) = (V c main_arg2 : S128x128.Idx → EReal) j
  refine congrArg _ (funext fun a => Fin.ext ?_)
  match a with
  | ⟨0, _⟩ => show win0_2.index t (0 : Fin 2) * 128 + 1 * (j 0).val = (j 0).val; omega
  | ⟨1, _⟩ => show win0_2.index t (1 : Fin 2) * 128 + 1 * (j 1).val = (j 1).val; omega

/-- Window 3 is fetched whole at every point. -/
theorem iblk_3 (c : Dev nD) (t : Fin cfg0.N) :
    (iblk0 V c 3 t : S128.Idx → EReal) = (V c main_arg3 : S128.Idx → EReal) := by
  obtain ⟨f0, f1, f2, f3, f4, f5, f6, f7, f8, f9, f10⟩ := idx_facts t
  funext j
  show (V c main_arg3 : S128.Idx → EReal) (((cfg0.win 3).blk t).view.emb j) = (V c main_arg3 : S128.Idx → EReal) j
  refine congrArg _ (funext fun a => Fin.ext ?_)
  match a with
  | ⟨0, _⟩ => show win0_3.index t (0 : Fin 1) * 128 + 1 * (j 0).val = (j 0).val; omega

/-- Window 4 is fetched whole at every point. -/
theorem iblk_4 (c : Dev nD) (t : Fin cfg0.N) :
    (iblk0 V c 4 t : S128x128.Idx → EReal) = (V c main_arg4 : S128x128.Idx → EReal) := by
  obtain ⟨f0, f1, f2, f3, f4, f5, f6, f7, f8, f9, f10⟩ := idx_facts t
  funext j
  show (V c main_arg4 : S128x128.Idx → EReal) (((cfg0.win 4).blk t).view.emb j) = (V c main_arg4 : S128x128.Idx → EReal) j
  refine congrArg _ (funext fun a => Fin.ext ?_)
  match a with
  | ⟨0, _⟩ => show win0_4.index t (0 : Fin 2) * 128 + 1 * (j 0).val = (j 0).val; omega
  | ⟨1, _⟩ => show win0_4.index t (1 : Fin 2) * 128 + 1 * (j 1).val = (j 1).val; omega

/-- What the region leaves in its output array, as one function of the arrays it finds on entry. -/
def G (c : Dev nD) : S200000x128.Idx → EReal :=
  floorAt zeroWord (lin (M := 200000) (K := 128) (N := 128) (V c main_v18 : S200000x128.Idx → EReal) (V c main_arg1 : S200000x128.Idx → EReal)
      (V c main_arg2 : S128x128.Idx → EReal) (V c main_arg3 : S128.Idx → EReal) (V c main_arg4 : S128x128.Idx → EReal))

/-- What point `t` writes back is rows `2000·t …` of `G`: a block of rows of the network's function is that
    function of the block of rows. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x128) hz2, View.ld_unit_zero (S := S128) hz1]
  rw [pay_floor0, iblk_0, iblk_1, iblk_2, iblk_3, iblk_4]
  obtain ⟨f0, f1, f2, f3, f4, f5, f6, f7, f8, f9, f10⟩ := idx_facts t
  funext j
  show _ = G V c (((cfg0.win 5).blk t).view.emb j)
  have hj : ((cfg0.win 5).blk t).view.emb j = ix2 ⟨t.val * 2000 + (j 0).val, by have := hrow t; have := idx2_lt0 j; omega⟩ (j 1) := by
    funext a; apply Fin.ext
    match a with
    | ⟨0, _⟩ => show win0_5.index t (0 : Fin 2) * 2000 + 1 * (j 0).val = t.val * 2000 + (j 0).val; omega
    | ⟨1, _⟩ => show win0_5.index t (1 : Fin 2) * 128 + 1 * (j 1).val = (j 1).val; omega
  rw [hj]
  rfl

/-- An index of the output array is in point `t`'s block iff each coordinate is in the block's range. -/
theorem mem_blk (t : Fin cfg0.N) (i : S200000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v38).slice (win0_5.rect t)).set ↔ _
  rw [View.set_slice_whole, Rect.mem_set_unit]
  exact Iff.rfl

/-- Every row lies in the block of point `row / 2000`. -/
theorem cover (i : S200000x128.Idx) : ∃ t : Fin cfg0.N, (cfg0.win 5).flush t = true ∧ i ∈ ((cfg0.win 5).blk t).view.set := by
  have hi0 : (i 0).val < 200000 := (i 0).isLt
  have hi1 : (i 1).val < 128 := (i 1).isLt
  have hN : cfg0.N = 100 := N_0
  have ht : (i 0).val / 2000 < cfg0.N := by rw [hN]; omega
  obtain ⟨f0, f1, f2, f3, f4, f5, f6, f7, f8, f9, f10⟩ := idx_facts ⟨(i 0).val / 2000, ht⟩
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [f9]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    rw [f10]; omega

/-- THE OUTPUT ARRAY after the region: the network's function of the arrays found on entry. -/
theorem final (c : Dev nD) : (dat0 V c).arrAt 5 cfg0.N = G V c :=
  (dat0 V c).arrAt_eq_of_cover 5 (G V c) (fun t _ => flushed_eq V c t) (cover)

end Cert.KernelIdeal.Region0

end
-- ==== Proof.KRegion1.lean ====
/-
  The second kernel: layer 1 on the 100000 gene nodes, tiled over 50 blocks of 2000 rows.
  Each point loads its block of rows of the two row operands and the whole weights and bias, and writes back the
  dense combine of those rows; since an entry of the combine depends on its own row only, the blocks written
  back are the blocks of ONE array, the combine of the whole operands, and together they cover it.
-/
import proofs.«150708_j2001454760082_1_alg».proof.Proof.Gen.KernelIdeal.Frame
import proofs.«150708_j2001454760082_1_alg».proof.Proof.KBody

set_option maxRecDepth 16384

noncomputable section

namespace Cert.KernelIdeal.Region1

open Cert.KernelIdeal Cert.KernelIdeal.Gen Cert.KernelIdeal.Tile SageNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The grid has 50 points. -/
theorem lt_N : ∀ t : Fin cfg1.N, t.val < 50 := (by decide +kernel : ∀ t : Fin grid1.N, _)

theorem hrow (t : Fin cfg1.N) : t.val * 2000 + 2000 ≤ 100000 := by have := lt_N t; omega

/-- The index maps, decided over the grid: the row-tiled windows sit at block row `t`, the others at block 0. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- Window 0's block at point `t` is rows `2000·t … 2000·t + 1999` of its array. -/
theorem iblk_0 (c : Dev nD) (t : Fin cfg1.N) :
    (iblk1 V c 0 t : S2000x128.Idx → EReal) = rows 2000 (t.val * 2000) (hrow t) (V c main_v37 : S100000x128.Idx → EReal) := by
  obtain ⟨f0, f1, f2, f3, f4, f5, f6, f7, f8, f9, f10⟩ := idx_facts t
  funext j
  show (V c main_v37 : S100000x128.Idx → EReal) (((cfg1.win 0).blk t).view.emb j) = (V c main_v37 : S100000x128.Idx → EReal) _
  refine congrArg _ (funext fun a => Fin.ext ?_)
  match a with
  | ⟨0, _⟩ => show win1_0.index t (0 : Fin 2) * 2000 + 1 * (j 0).val = t.val * 2000 + (j 0).val; omega
  | ⟨1, _⟩ => show win1_0.index t (1 : Fin 2) * 128 + 1 * (j 1).val = (j 1).val; omega

/-- Window 1's block at point `t` is rows `2000·t … 2000·t + 1999` of its array. -/
theorem iblk_1 (c : Dev nD) (t : Fin cfg1.N) :
    (iblk1 V c 1 t : S2000x128.Idx → EReal) = rows 2000 (t.val * 2000) (hrow t) (V c main_arg0 : S100000x128.Idx → EReal) := by
  obtain ⟨f0, f1, f2, f3, f4, f5, f6, f7, f8, f9, f10⟩ := idx_facts t
  funext j
  show (V c main_arg0 : S100000x128.Idx → EReal) (((cfg1.win 1).blk t).view.emb j) = (V c main_arg0 : S100000x128.Idx → EReal) _
  refine congrArg _ (funext fun a => Fin.ext ?_)
  match a with
  | ⟨0, _⟩ => show win1_1.index t (0 : Fin 2) * 2000 + 1 * (j 0).val = t.val * 2000 + (j 0).val; omega
  | ⟨1, _⟩ => show win1_1.index t (1 : Fin 2) * 128 + 1 * (j 1).val = (j 1).val; omega

/-- Window 2 is fetched whole at every point. -/
theorem iblk_2 (c : Dev nD) (t : Fin cfg1.N) :
    (iblk1 V c 2 t : S128x128.Idx → EReal) = (V c main_arg5 : S128x128.Idx → EReal) := by
  obtain ⟨f0, f1, f2, f3, f4, f5, f6, f7, f8, f9, f10⟩ := idx_facts t
  funext j
  show (V c main_arg5 : S128x128.Idx → EReal) (((cfg1.win 2).blk t).view.emb j) = (V c main_arg5 : S128x128.Idx → EReal) j
  refine congrArg _ (funext fun a => Fin.ext ?_)
  match a with
  | ⟨0, _⟩ => show win1_2.index t (0 : Fin 2) * 128 + 1 * (j 0).val = (j 0).val; omega
  | ⟨1, _⟩ => show win1_2.index t (1 : Fin 2) * 128 + 1 * (j 1).val = (j 1).val; omega

/-- Window 3 is fetched whole at every point. -/
theorem iblk_3 (c : Dev nD) (t : Fin cfg1.N) :
    (iblk1 V c 3 t : S128.Idx → EReal) = (V c main_arg6 : S128.Idx → EReal) := by
  obtain ⟨f0, f1, f2, f3, f4, f5, f6, f7, f8, f9, f10⟩ := idx_facts t
  funext j
  show (V c main_arg6 : S128.Idx → EReal) (((cfg1.win 3).blk t).view.emb j) = (V c main_arg6 : S128.Idx → EReal) j
  refine congrArg _ (funext fun a => Fin.ext ?_)
  match a with
  | ⟨0, _⟩ => show win1_3.index t (0 : Fin 1) * 128 + 1 * (j 0).val = (j 0).val; omega

/-- Window 4 is fetched whole at every point. -/
theorem iblk_4 (c : Dev nD) (t : Fin cfg1.N) :
    (iblk1 V c 4 t : S128x128.Idx → EReal) = (V c main_arg7 : S128x128.Idx → EReal) := by
  obtain ⟨f0, f1, f2, f3, f4, f5, f6, f7, f8, f9, f10⟩ := idx_facts t
  funext j
  show (V c main_arg7 : S128x128.Idx → EReal) (((cfg1.win 4).blk t).view.emb j) = (V c main_arg7 : S128x128.Idx → EReal) j
  refine congrArg _ (funext fun a => Fin.ext ?_)
  match a with
  | ⟨0, _⟩ => show win1_4.index t (0 : Fin 2) * 128 + 1 * (j 0).val = (j 0).val; omega
  | ⟨1, _⟩ => show win1_4.index t (1 : Fin 2) * 128 + 1 * (j 1).val = (j 1).val; omega

/-- What the region leaves in its output array, as one function of the arrays it finds on entry. -/
def G (c : Dev nD) : S100000x128.Idx → EReal :=
  floorAt zeroWord (lin (M := 100000) (K := 128) (N := 128) (V c main_v37 : S100000x128.Idx → EReal) (V c main_arg0 : S100000x128.Idx → EReal)
      (V c main_arg5 : S128x128.Idx → EReal) (V c main_arg6 : S128.Idx → EReal) (V c main_arg7 : S128x128.Idx → EReal))

/-- What point `t` writes back is rows `2000·t …` of `G`: a block of rows of the network's function is that
    function of the block of rows. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S128x128) hz2, View.ld_unit_zero (S := S128) hz1]
  rw [pay_floor1, iblk_0, iblk_1, iblk_2, iblk_3, iblk_4]
  obtain ⟨f0, f1, f2, f3, f4, f5, f6, f7, f8, f9, f10⟩ := idx_facts t
  funext j
  show _ = G V c (((cfg1.win 5).blk t).view.emb j)
  have hj : ((cfg1.win 5).blk t).view.emb j = ix2 ⟨t.val * 2000 + (j 0).val, by have := hrow t; have := idx2_lt0 j; omega⟩ (j 1) := by
    funext a; apply Fin.ext
    match a with
    | ⟨0, _⟩ => show win1_5.index t (0 : Fin 2) * 2000 + 1 * (j 0).val = t.val * 2000 + (j 0).val; omega
    | ⟨1, _⟩ => show win1_5.index t (1 : Fin 2) * 128 + 1 * (j 1).val = (j 1).val; omega
  rw [hj]
  rfl

/-- An index of the output array is in point `t`'s block iff each coordinate is in the block's range. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v39).slice (win1_5.rect t)).set ↔ _
  rw [View.set_slice_whole, Rect.mem_set_unit]
  exact Iff.rfl

/-- Every row lies in the block of point `row / 2000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  have ht : (i 0).val / 2000 < cfg1.N := by rw [hN]; omega
  obtain ⟨f0, f1, f2, f3, f4, f5, f6, f7, f8, f9, f10⟩ := idx_facts ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [f9]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val ∧ (i 1).val < win1_5.index ⟨(i 0).val / 2000, ht⟩ (1 : Fin 2) * 128 + 128
    rw [f10]; omega

/-- THE OUTPUT ARRAY after the region: the network's function of the arrays found on entry. -/
theorem final (c : Dev nD) : (dat1 V c).arrAt 5 cfg1.N = G V c :=
  (dat1 V c).arrAt_eq_of_cover 5 (G V c) (fun t _ => flushed_eq V c t) (cover)

end Cert.KernelIdeal.Region1

end
-- ==== Proof.KRegion2.lean ====
/-
  The third kernel: layer 2 on the 200000 variant nodes, tiled over 100 blocks of 2000 rows.
  Each point loads its block of rows of the two row operands and the whole weights and bias, and writes back the
  dense combine of those rows; since an entry of the combine depends on its own row only, the blocks written
  back are the blocks of ONE array, the combine of the whole operands, and together they cover it.
-/
import proofs.«150708_j2001454760082_1_alg».proof.Proof.Gen.KernelIdeal.Frame
import proofs.«150708_j2001454760082_1_alg».proof.Proof.KBody

set_option maxRecDepth 16384

noncomputable section

namespace Cert.KernelIdeal.Region2

open Cert.KernelIdeal Cert.KernelIdeal.Gen Cert.KernelIdeal.Tile SageNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The grid has 100 points. -/
theorem lt_N : ∀ t : Fin cfg2.N, t.val < 100 := (by decide +kernel : ∀ t : Fin grid2.N, _)

theorem hrow (t : Fin cfg2.N) : t.val * 2000 + 2000 ≤ 200000 := by have := lt_N t; omega

/-- The index maps, decided over the grid: the row-tiled windows sit at block row `t`, the others at block 0. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 1) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- Window 0's block at point `t` is rows `2000·t … 2000·t + 1999` of its array. -/
theorem iblk_0 (c : Dev nD) (t : Fin cfg2.N) :
    (iblk2 V c 0 t : S2000x128.Idx → EReal) = rows 2000 (t.val * 2000) (hrow t) (V c main_v58 : S200000x128.Idx → EReal) := by
  obtain ⟨f0, f1, f2, f3, f4, f5, f6, f7, f8, f9, f10⟩ := idx_facts t
  funext j
  show (V c main_v58 : S200000x128.Idx → EReal) (((cfg2.win 0).blk t).view.emb j) = (V c main_v58 : S200000x128.Idx → EReal) _
  refine congrArg _ (funext fun a => Fin.ext ?_)
  match a with
  | ⟨0, _⟩ => show win2_0.index t (0 : Fin 2) * 2000 + 1 * (j 0).val = t.val * 2000 + (j 0).val; omega
  | ⟨1, _⟩ => show win2_0.index t (1 : Fin 2) * 128 + 1 * (j 1).val = (j 1).val; omega

/-- Window 1's block at point `t` is rows `2000·t … 2000·t + 1999` of its array. -/
theorem iblk_1 (c : Dev nD) (t : Fin cfg2.N) :
    (iblk2 V c 1 t : S2000x128.Idx → EReal) = rows 2000 (t.val * 2000) (hrow t) (V c main_v38 : S200000x128.Idx → EReal) := by
  obtain ⟨f0, f1, f2, f3, f4, f5, f6, f7, f8, f9, f10⟩ := idx_facts t
  funext j
  show (V c main_v38 : S200000x128.Idx → EReal) (((cfg2.win 1).blk t).view.emb j) = (V c main_v38 : S200000x128.Idx → EReal) _
  refine congrArg _ (funext fun a => Fin.ext ?_)
  match a with
  | ⟨0, _⟩ => show win2_1.index t (0 : Fin 2) * 2000 + 1 * (j 0).val = t.val * 2000 + (j 0).val; omega
  | ⟨1, _⟩ => show win2_1.index t (1 : Fin 2) * 128 + 1 * (j 1).val = (j 1).val; omega

/-- Window 2 is fetched whole at every point. -/
theorem iblk_2 (c : Dev nD) (t : Fin cfg2.N) :
    (iblk2 V c 2 t : S128x128.Idx → EReal) = (V c main_arg8 : S128x128.Idx → EReal) := by
  obtain ⟨f0, f1, f2, f3, f4, f5, f6, f7, f8, f9, f10⟩ := idx_facts t
  funext j
  show (V c main_arg8 : S128x128.Idx → EReal) (((cfg2.win 2).blk t).view.emb j) = (V c main_arg8 : S128x128.Idx → EReal) j
  refine congrArg _ (funext fun a => Fin.ext ?_)
  match a with
  | ⟨0, _⟩ => show win2_2.index t (0 : Fin 2) * 128 + 1 * (j 0).val = (j 0).val; omega
  | ⟨1, _⟩ => show win2_2.index t (1 : Fin 2) * 128 + 1 * (j 1).val = (j 1).val; omega

/-- Window 3 is fetched whole at every point. -/
theorem iblk_3 (c : Dev nD) (t : Fin cfg2.N) :
    (iblk2 V c 3 t : S128.Idx → EReal) = (V c main_arg9 : S128.Idx → EReal) := by
  obtain ⟨f0, f1, f2, f3, f4, f5, f6, f7, f8, f9, f10⟩ := idx_facts t
  funext j
  show (V c main_arg9 : S128.Idx → EReal) (((cfg2.win 3).blk t).view.emb j) = (V c main_arg9 : S128.Idx → EReal) j
  refine congrArg _ (funext fun a => Fin.ext ?_)
  match a with
  | ⟨0, _⟩ => show win2_3.index t (0 : Fin 1) * 128 + 1 * (j 0).val = (j 0).val; omega

/-- Window 4 is fetched whole at every point. -/
theorem iblk_4 (c : Dev nD) (t : Fin cfg2.N) :
    (iblk2 V c 4 t : S128x128.Idx → EReal) = (V c main_arg10 : S128x128.Idx → EReal) := by
  obtain ⟨f0, f1, f2, f3, f4, f5, f6, f7, f8, f9, f10⟩ := idx_facts t
  funext j
  show (V c main_arg10 : S128x128.Idx → EReal) (((cfg2.win 4).blk t).view.emb j) = (V c main_arg10 : S128x128.Idx → EReal) j
  refine congrArg _ (funext fun a => Fin.ext ?_)
  match a with
  | ⟨0, _⟩ => show win2_4.index t (0 : Fin 2) * 128 + 1 * (j 0).val = (j 0).val; omega
  | ⟨1, _⟩ => show win2_4.index t (1 : Fin 2) * 128 + 1 * (j 1).val = (j 1).val; omega

/-- What the region leaves in its output array, as one function of the arrays it finds on entry. -/
def G (c : Dev nD) : S200000x128.Idx → EReal :=
  lin (M := 200000) (K := 128) (N := 128) (V c main_v58 : S200000x128.Idx → EReal) (V c main_v38 : S200000x128.Idx → EReal)
      (V c main_arg8 : S128x128.Idx → EReal) (V c main_arg9 : S128.Idx → EReal) (V c main_arg10 : S128x128.Idx → EReal)

/-- What point `t` writes back is rows `2000·t …` of `G`: a block of rows of the network's function is that
    function of the block of rows. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz2]
  simp only [View.ld_unit_zero (S := S2000x128) hz2, View.ld_unit_zero (S := S128x128) hz2, View.ld_unit_zero (S := S128) hz1]
  rw [pay_lin2, iblk_0, iblk_1, iblk_2, iblk_3, iblk_4]
  obtain ⟨f0, f1, f2, f3, f4, f5, f6, f7, f8, f9, f10⟩ := idx_facts t
  funext j
  show _ = G V c (((cfg2.win 5).blk t).view.emb j)
  have hj : ((cfg2.win 5).blk t).view.emb j = ix2 ⟨t.val * 2000 + (j 0).val, by have := hrow t; have := idx2_lt0 j; omega⟩ (j 1) := by
    funext a; apply Fin.ext
    match a with
    | ⟨0, _⟩ => show win2_5.index t (0 : Fin 2) * 2000 + 1 * (j 0).val = t.val * 2000 + (j 0).val; omega
    | ⟨1, _⟩ => show win2_5.index t (1 : Fin 2) * 128 + 1 * (j 1).val = (j 1).val; omega
  rw [hj]
  rfl

/-- An index of the output array is in point `t`'s block iff each coordinate is in the block's range. -/
theorem mem_blk (t : Fin cfg2.N) (i : S200000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v78).slice (win2_5.rect t)).set ↔ _
  rw [View.set_slice_whole, Rect.mem_set_unit]
  exact Iff.rfl

/-- Every row lies in the block of point `row / 2000`. -/
theorem cover (i : S200000x128.Idx) : ∃ t : Fin cfg2.N, (cfg2.win 5).flush t = true ∧ i ∈ ((cfg2.win 5).blk t).view.set := by
  have hi0 : (i 0).val < 200000 := (i 0).isLt
  have hi1 : (i 1).val < 128 := (i 1).isLt
  have hN : cfg2.N = 100 := N_2
  have ht : (i 0).val / 2000 < cfg2.N := by rw [hN]; omega
  obtain ⟨f0, f1, f2, f3, f4, f5, f6, f7, f8, f9, f10⟩ := idx_facts ⟨(i 0).val / 2000, ht⟩
  refine ⟨⟨(i 0).val / 2000, ht⟩, flush2_5 _, ?_⟩
  rw [mem_blk]
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [f9]; show (i 0).val / 2000 * 2000 ≤ (i 0).val ∧ (i 0).val < (i 0).val / 2000 * 2000 + 2000; omega
  | ⟨1, _⟩ =>
    show win2_5.index ⟨(i 0).val / 2000, ht⟩ (1 : Fin 2) * 128 ≤ (i 1).val ∧ (i 1).val < win2_5.index ⟨(i 0).val / 2000, ht⟩ (1 : Fin 2) * 128 + 128
    rw [f10]; omega

/-- THE OUTPUT ARRAY after the region: the network's function of the arrays found on entry. -/
theorem final (c : Dev nD) : (dat2 V c).arrAt 5 cfg2.N = G V c :=
  (dat2 V c).arrAt_eq_of_cover 5 (G V c) (fun t _ => flushed_eq V c t) (cover)

end Cert.KernelIdeal.Region2

end
-- ==== Proof.KRegion3.lean ====
/-
  The fourth kernel: layer 2 on the 100000 gene nodes, tiled over 50 blocks of 2000 rows.
  Each point loads its block of rows of the two row operands and the whole weights and bias, and writes back the
  dense combine of those rows; since an entry of the combine depends on its own row only, the blocks written
  back are the blocks of ONE array, the combine of the whole operands, and together they cover it.
-/
import proofs.«150708_j2001454760082_1_alg».proof.Proof.Gen.KernelIdeal.Frame
import proofs.«150708_j2001454760082_1_alg».proof.Proof.KBody

set_option maxRecDepth 16384

noncomputable section

namespace Cert.KernelIdeal.Region3

open Cert.KernelIdeal Cert.KernelIdeal.Gen Cert.KernelIdeal.Tile SageNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The grid has 50 points. -/
theorem lt_N : ∀ t : Fin cfg3.N, t.val < 50 := (by decide +kernel : ∀ t : Fin grid3.N, _)

theorem hrow (t : Fin cfg3.N) : t.val * 2000 + 2000 ≤ 100000 := by have := lt_N t; omega

/-- The index maps, decided over the grid: the row-tiled windows sit at block row `t`, the others at block 0. -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 1) = 0
    ∧ win3_4.index t (0 : Fin 2) = 0
    ∧ win3_4.index t (1 : Fin 2) = 0
    ∧ win3_5.index t (0 : Fin 2) = t.val
    ∧ win3_5.index t (1 : Fin 2) = 0 :=
  (by decide +kernel : ∀ t : Fin grid3.N, _)

/-- Window 0's block at point `t` is rows `2000·t … 2000·t + 1999` of its array. -/
theorem iblk_0 (c : Dev nD) (t : Fin cfg3.N) :
    (iblk3 V c 0 t : S2000x128.Idx → EReal) = rows 2000 (t.val * 2000) (hrow t) (V c main_v77 : S100000x128.Idx → EReal) := by
  obtain ⟨f0, f1, f2, f3, f4, f5, f6, f7, f8, f9, f10⟩ := idx_facts t
  funext j
  show (V c main_v77 : S100000x128.Idx → EReal) (((cfg3.win 0).blk t).view.emb j) = (V c main_v77 : S100000x128.Idx → EReal) _
  refine congrArg _ (funext fun a => Fin.ext ?_)
  match a with
  | ⟨0, _⟩ => show win3_0.index t (0 : Fin 2) * 2000 + 1 * (j 0).val = t.val * 2000 + (j 0).val; omega
  | ⟨1, _⟩ => show win3_0.index t (1 : Fin 2) * 128 + 1 * (j 1).val = (j 1).val; omega

/-- Window 1's block at point `t` is rows `2000·t … 2000·t + 1999` of its array. -/
theorem iblk_1 (c : Dev nD) (t : Fin cfg3.N) :
    (iblk3 V c 1 t : S2000x128.Idx → EReal) = rows 2000 (t.val * 2000) (hrow t) (V c main_v39 : S100000x128.Idx → EReal) := by
  obtain ⟨f0, f1, f2, f3, f4, f5, f6, f7, f8, f9, f10⟩ := idx_facts t
  funext j
  show (V c main_v39 : S100000x128.Idx → EReal) (((cfg3.win 1).blk t).view.emb j) = (V c main_v39 : S100000x128.Idx → EReal) _
  refine congrArg _ (funext fun a => Fin.ext ?_)
  match a with
  | ⟨0, _⟩ => show win3_1.index t (0 : Fin 2) * 2000 + 1 * (j 0).val = t.val * 2000 + (j 0).val; omega
  | ⟨1, _⟩ => show win3_1.index t (1 : Fin 2) * 128 + 1 * (j 1).val = (j 1).val; omega

/-- Window 2 is fetched whole at every point. -/
theorem iblk_2 (c : Dev nD) (t : Fin cfg3.N) :
    (iblk3 V c 2 t : S128x128.Idx → EReal) = (V c main_arg11 : S128x128.Idx → EReal) := by
  obtain ⟨f0, f1, f2, f3, f4, f5, f6, f7, f8, f9, f10⟩ := idx_facts t
  funext j
  show (V c main_arg11 : S128x128.Idx → EReal) (((cfg3.win 2).blk t).view.emb j) = (V c main_arg11 : S128x128.Idx → EReal) j
  refine congrArg _ (funext fun a => Fin.ext ?_)
  match a with
  | ⟨0, _⟩ => show win3_2.index t (0 : Fin 2) * 128 + 1 * (j 0).val = (j 0).val; omega
  | ⟨1, _⟩ => show win3_2.index t (1 : Fin 2) * 128 + 1 * (j 1).val = (j 1).val; omega

/-- Window 3 is fetched whole at every point. -/
theorem iblk_3 (c : Dev nD) (t : Fin cfg3.N) :
    (iblk3 V c 3 t : S128.Idx → EReal) = (V c main_arg12 : S128.Idx → EReal) := by
  obtain ⟨f0, f1, f2, f3, f4, f5, f6, f7, f8, f9, f10⟩ := idx_facts t
  funext j
  show (V c main_arg12 : S128.Idx → EReal) (((cfg3.win 3).blk t).view.emb j) = (V c main_arg12 : S128.Idx → EReal) j
  refine congrArg _ (funext fun a => Fin.ext ?_)
  match a with
  | ⟨0, _⟩ => show win3_3.index t (0 : Fin 1) * 128 + 1 * (j 0).val = (j 0).val; omega

/-- Window 4 is fetched whole at every point. -/
theorem iblk_4 (c : Dev nD) (t : Fin cfg3.N) :
    (iblk3 V c 4 t : S128x128.Idx → EReal) = (V c main_arg13 : S128x128.Idx → EReal) := by
  obtain ⟨f0, f1, f2, f3, f4, f5, f6, f7, f8, f9, f10⟩ := idx_facts t
  funext j
  show (V c main_arg13 : S128x128.Idx → EReal) (((cfg3.win 4).blk t).view.emb j) = (V c main_arg13 : S128x128.Idx → EReal) j
  refine congrArg _ (funext fun a => Fin.ext ?_)
  match a with
  | ⟨0, _⟩ => show win3_4.index t (0 : Fin 2) * 128 + 1 * (j 0).val = (j 0).val; omega
  | ⟨1, _⟩ => show win3_4.index t (1 : Fin 2) * 128 + 1 * (j 1).val = (j 1).val; omega

/-- What the region leaves in its output array, as one function of the arrays it finds on entry. -/
def G (c : Dev nD) : S100000x128.Idx → EReal :=
  lin (M := 100000) (K := 128) (N := 128) (V c main_v77 : S100000x128.Idx → EReal) (V c main_v39 : S100000x128.Idx → EReal)
      (V c main_arg11 : S128x128.Idx → EReal) (V c main_arg12 : S128.Idx → EReal) (V c main_arg13 : S128x128.Idx → EReal)

/-- What point `t` writes back is rows `2000·t …` of `G`: a block of rows of the network's function is that
    function of the block of rows. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz2]
  simp only [View.ld_unit_zero (S := S2000x128) hz2, View.ld_unit_zero (S := S128x128) hz2, View.ld_unit_zero (S := S128) hz1]
  rw [pay_lin3, iblk_0, iblk_1, iblk_2, iblk_3, iblk_4]
  obtain ⟨f0, f1, f2, f3, f4, f5, f6, f7, f8, f9, f10⟩ := idx_facts t
  funext j
  show _ = G V c (((cfg3.win 5).blk t).view.emb j)
  have hj : ((cfg3.win 5).blk t).view.emb j = ix2 ⟨t.val * 2000 + (j 0).val, by have := hrow t; have := idx2_lt0 j; omega⟩ (j 1) := by
    funext a; apply Fin.ext
    match a with
    | ⟨0, _⟩ => show win3_5.index t (0 : Fin 2) * 2000 + 1 * (j 0).val = t.val * 2000 + (j 0).val; omega
    | ⟨1, _⟩ => show win3_5.index t (1 : Fin 2) * 128 + 1 * (j 1).val = (j 1).val; omega
  rw [hj]
  rfl

/-- An index of the output array is in point `t`'s block iff each coordinate is in the block's range. -/
theorem mem_blk (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v79).slice (win3_5.rect t)).set ↔ _
  rw [View.set_slice_whole, Rect.mem_set_unit]
  exact Iff.rfl

/-- Every row lies in the block of point `row / 2000`. -/
theorem cover (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 50 := N_3
  have ht : (i 0).val / 2000 < cfg3.N := by rw [hN]; omega
  obtain ⟨f0, f1, f2, f3, f4, f5, f6, f7, f8, f9, f10⟩ := idx_facts ⟨(i 0).val / 2000, ht⟩
  refine ⟨⟨(i 0).val / 2000, ht⟩, flush3_5 _, ?_⟩
  rw [mem_blk]
  intro a
  match a with
  | ⟨0, _⟩ =>
    show win3_5.index ⟨(i 0).val / 2000, ht⟩ (0 : Fin 2) * 2000 ≤ (i 0).val ∧ (i 0).val < win3_5.index ⟨(i 0).val / 2000, ht⟩ (0 : Fin 2) * 2000 + 2000
    rw [f9]; show (i 0).val / 2000 * 2000 ≤ (i 0).val ∧ (i 0).val < (i 0).val / 2000 * 2000 + 2000; omega
  | ⟨1, _⟩ =>
    show win3_5.index ⟨(i 0).val / 2000, ht⟩ (1 : Fin 2) * 128 ≤ (i 1).val ∧ (i 1).val < win3_5.index ⟨(i 0).val / 2000, ht⟩ (1 : Fin 2) * 128 + 128
    rw [f10]; omega

/-- THE OUTPUT ARRAY after the region: the network's function of the arrays found on entry. -/
theorem final (c : Dev nD) : (dat3 V c).arrAt 5 cfg3.N = G V c :=
  (dat3 V c).arrAt_eq_of_cover 5 (G V c) (fun t _ => flushed_eq V c t) (cover)

end Cert.KernelIdeal.Region3

end
-- ==== Proof.KRegion4.lean ====
/-
  The fifth kernel: the head on the 100000 gene nodes, tiled over 50 blocks of 2000 rows.
  Each point loads its block of rows of the layer-2 gene features and the head's weights and biases whole, and
  writes back the head of those rows; an entry depends on its own row only, so the blocks are the blocks of the
  head of the whole array, and they cover it.
-/
import proofs.«150708_j2001454760082_1_alg».proof.Proof.Gen.KernelIdeal.Frame
import proofs.«150708_j2001454760082_1_alg».proof.Proof.KBody

set_option maxRecDepth 16384

noncomputable section

namespace Cert.KernelIdeal.Region4

open Cert.KernelIdeal Cert.KernelIdeal.Gen Cert.KernelIdeal.Tile SageNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The grid has 50 points. -/
theorem lt_N : ∀ t : Fin cfg4.N, t.val < 50 := (by decide +kernel : ∀ t : Fin grid4.N, _)

theorem hrow (t : Fin cfg4.N) : t.val * 2000 + 2000 ≤ 100000 := by have := lt_N t; omega

/-- The index maps, decided over the grid: the row-tiled windows sit at block row `t`, the others at block 0. -/
theorem idx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 1) = 0
    ∧ win4_3.index t (0 : Fin 2) = 0
    ∧ win4_3.index t (1 : Fin 2) = 0
    ∧ win4_4.index t (0 : Fin 1) = 0
    ∧ win4_5.index t (0 : Fin 2) = t.val
    ∧ win4_5.index t (1 : Fin 2) = 0 :=
  (by decide +kernel : ∀ t : Fin grid4.N, _)

/-- Window 0's block at point `t` is rows `2000·t … 2000·t + 1999` of its array. -/
theorem iblk_0 (c : Dev nD) (t : Fin cfg4.N) :
    (iblk4 V c 0 t : S2000x128.Idx → EReal) = rows 2000 (t.val * 2000) (hrow t) (V c main_v79 : S100000x128.Idx → EReal) := by
  obtain ⟨f0, f1, f2, f3, f4, f5, f6, f7, f8, f9⟩ := idx_facts t
  funext j
  show (V c main_v79 : S100000x128.Idx → EReal) (((cfg4.win 0).blk t).view.emb j) = (V c main_v79 : S100000x128.Idx → EReal) _
  refine congrArg _ (funext fun a => Fin.ext ?_)
  match a with
  | ⟨0, _⟩ => show win4_0.index t (0 : Fin 2) * 2000 + 1 * (j 0).val = t.val * 2000 + (j 0).val; omega
  | ⟨1, _⟩ => show win4_0.index t (1 : Fin 2) * 128 + 1 * (j 1).val = (j 1).val; omega

/-- Window 1 is fetched whole at every point. -/
theorem iblk_1 (c : Dev nD) (t : Fin cfg4.N) :
    (iblk4 V c 1 t : S128x128.Idx → EReal) = (V c main_arg14 : S128x128.Idx → EReal) := by
  obtain ⟨f0, f1, f2, f3, f4, f5, f6, f7, f8, f9⟩ := idx_facts t
  funext j
  show (V c main_arg14 : S128x128.Idx → EReal) (((cfg4.win 1).blk t).view.emb j) = (V c main_arg14 : S128x128.Idx → EReal) j
  refine congrArg _ (funext fun a => Fin.ext ?_)
  match a with
  | ⟨0, _⟩ => show win4_1.index t (0 : Fin 2) * 128 + 1 * (j 0).val = (j 0).val; omega
  | ⟨1, _⟩ => show win4_1.index t (1 : Fin 2) * 128 + 1 * (j 1).val = (j 1).val; omega

/-- Window 2 is fetched whole at every point. -/
theorem iblk_2 (c : Dev nD) (t : Fin cfg4.N) :
    (iblk4 V c 2 t : S128.Idx → EReal) = (V c main_arg15 : S128.Idx → EReal) := by
  obtain ⟨f0, f1, f2, f3, f4, f5, f6, f7, f8, f9⟩ := idx_facts t
  funext j
  show (V c main_arg15 : S128.Idx → EReal) (((cfg4.win 2).blk t).view.emb j) = (V c main_arg15 : S128.Idx → EReal) j
  refine congrArg _ (funext fun a => Fin.ext ?_)
  match a with
  | ⟨0, _⟩ => show win4_2.index t (0 : Fin 1) * 128 + 1 * (j 0).val = (j 0).val; omega

/-- Window 3 is fetched whole at every point. -/
theorem iblk_3 (c : Dev nD) (t : Fin cfg4.N) :
    (iblk4 V c 3 t : S8x128.Idx → EReal) = (V c main_arg16 : S8x128.Idx → EReal) := by
  obtain ⟨f0, f1, f2, f3, f4, f5, f6, f7, f8, f9⟩ := idx_facts t
  funext j
  show (V c main_arg16 : S8x128.Idx → EReal) (((cfg4.win 3).blk t).view.emb j) = (V c main_arg16 : S8x128.Idx → EReal) j
  refine congrArg _ (funext fun a => Fin.ext ?_)
  match a with
  | ⟨0, _⟩ => show win4_3.index t (0 : Fin 2) * 8 + 1 * (j 0).val = (j 0).val; omega
  | ⟨1, _⟩ => show win4_3.index t (1 : Fin 2) * 128 + 1 * (j 1).val = (j 1).val; omega

/-- Window 4 is fetched whole at every point. -/
theorem iblk_4 (c : Dev nD) (t : Fin cfg4.N) :
    (iblk4 V c 4 t : S8.Idx → EReal) = (V c main_arg17 : S8.Idx → EReal) := by
  obtain ⟨f0, f1, f2, f3, f4, f5, f6, f7, f8, f9⟩ := idx_facts t
  funext j
  show (V c main_arg17 : S8.Idx → EReal) (((cfg4.win 4).blk t).view.emb j) = (V c main_arg17 : S8.Idx → EReal) j
  refine congrArg _ (funext fun a => Fin.ext ?_)
  match a with
  | ⟨0, _⟩ => show win4_4.index t (0 : Fin 1) * 8 + 1 * (j 0).val = (j 0).val; omega

/-- What the region leaves in its output array, as one function of the arrays it finds on entry. -/
def G (c : Dev nD) : S100000x8.Idx → EReal :=
  head (M := 100000) (K := 128) (N := 128) (C := 8) zeroWord (V c main_v79 : S100000x128.Idx → EReal) (V c main_arg14 : S128x128.Idx → EReal)
      (V c main_arg15 : S128.Idx → EReal) (V c main_arg16 : S8x128.Idx → EReal) (V c main_arg17 : S8.Idx → EReal)

/-- What point `t` writes back is rows `2000·t …` of `G`: a block of rows of the network's function is that
    function of the block of rows. -/
theorem flushed_eq (c : Dev nD) (t : Fin cfg4.N) :
    (dat4 V c).flushed 5 t = ((cfg4.win 5).blk t).view.read (Elt Ideal) (G V c) := by
  show (cfg4.win 5).cut (grid4.coords t) ((dat4 V c).after 5 t) = _
  rw [after4_5]
  unfold out4_5
  rw [View.canon_unit_zero hz2]
  simp only [View.ld_unit_zero (S := S2000x128) hz2, View.ld_unit_zero (S := S128x128) hz2, View.ld_unit_zero (S := S128) hz1, View.ld_unit_zero (S := S8x128) hz2, View.ld_unit_zero (S := S8) hz1]
  rw [pay_head, iblk_0, iblk_1, iblk_2, iblk_3, iblk_4]
  obtain ⟨f0, f1, f2, f3, f4, f5, f6, f7, f8, f9⟩ := idx_facts t
  funext j
  show _ = G V c (((cfg4.win 5).blk t).view.emb j)
  have hj : ((cfg4.win 5).blk t).view.emb j = ix2 ⟨t.val * 2000 + (j 0).val, by have := hrow t; have := idx2_lt0 j; omega⟩ (j 1) := by
    funext a; apply Fin.ext
    match a with
    | ⟨0, _⟩ => show win4_5.index t (0 : Fin 2) * 2000 + 1 * (j 0).val = t.val * 2000 + (j 0).val; omega
    | ⟨1, _⟩ => show win4_5.index t (1 : Fin 2) * 8 + 1 * (j 1).val = (j 1).val; omega
  rw [hj]
  rfl

/-- An index of the output array is in point `t`'s block iff each coordinate is in the block's range. -/
theorem mem_blk (t : Fin cfg4.N) (i : S100000x8.Idx) :
    i ∈ ((cfg4.win 5).blk t).view.set ↔ ∀ a : Fin 2, win4_5.index t a * S2000x8.size a ≤ (i a).val ∧ (i a).val < win4_5.index t a * S2000x8.size a + S2000x8.size a := by
  show i ∈ ((View.whole main_v80).slice (win4_5.rect t)).set ↔ _
  rw [View.set_slice_whole, Rect.mem_set_unit]
  exact Iff.rfl

/-- Every row lies in the block of point `row / 2000`. -/
theorem cover (i : S100000x8.Idx) : ∃ t : Fin cfg4.N, (cfg4.win 5).flush t = true ∧ i ∈ ((cfg4.win 5).blk t).view.set := by
  have hi0 : (i 0).val < 100000 := (i 0).isLt
  have hi1 : (i 1).val < 8 := (i 1).isLt
  have hN : cfg4.N = 50 := N_4
  have ht : (i 0).val / 2000 < cfg4.N := by rw [hN]; omega
  obtain ⟨f0, f1, f2, f3, f4, f5, f6, f7, f8, f9⟩ := idx_facts ⟨(i 0).val / 2000, ht⟩
  refine ⟨⟨(i 0).val / 2000, ht⟩, flush4_5 _, ?_⟩
  rw [mem_blk]
  intro a
  match a with
  | ⟨0, _⟩ =>
    show win4_5.index ⟨(i 0).val / 2000, ht⟩ (0 : Fin 2) * 2000 ≤ (i 0).val ∧ (i 0).val < win4_5.index ⟨(i 0).val / 2000, ht⟩ (0 : Fin 2) * 2000 + 2000
    rw [f8]; show (i 0).val / 2000 * 2000 ≤ (i 0).val ∧ (i 0).val < (i 0).val / 2000 * 2000 + 2000; omega
  | ⟨1, _⟩ =>
    show win4_5.index ⟨(i 0).val / 2000, ht⟩ (1 : Fin 2) * 8 ≤ (i 1).val ∧ (i 1).val < win4_5.index ⟨(i 0).val / 2000, ht⟩ (1 : Fin 2) * 8 + 8
    rw [f9]; omega

/-- THE OUTPUT ARRAY after the region: the network's function of the arrays found on entry. -/
theorem final (c : Dev nD) : (dat4 V c).arrAt 5 cfg4.N = G V c :=
  (dat4 V c).arrAt_eq_of_cover 5 (G V c) (fun t _ => flushed_eq V c t) (cover)

end Cert.KernelIdeal.Region4

end
-- ==== Proof.KArgs.lean ====
/-
  The arguments at the segment boundaries.

  No host operation and no kernel writes an argument array, so at every boundary where a later segment reads
  one it still holds its launch contents: a host stretch leaves alone every buffer none of its operations
  writes, and a kernel leaves alone every buffer that is not one of its own arrays.
-/
import proofs.«150708_j2001454760082_1_alg».proof.Proof.Gen.KernelIdeal.Frame
import Idealize.ShloMosaic.PureOps.Ideal

set_option maxRecDepth 16384

noncomputable section

namespace Cert.KernelIdeal.Args

open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

theorem W1_arg0 : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W2_arg0 : W2 m ρ c (Proc.devRef .tc main_arg0) = m ((c : Thread nD τ).loc main_arg0) :=
  (W2_of_ne m ρ c main_arg0 (by decide)).trans (W1_arg0 m ρ c)

theorem W1_arg1 : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg2 : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg3 : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg4 : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W1_arg5 : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W2_arg5 : W2 m ρ c (Proc.devRef .tc main_arg5) = m ((c : Thread nD τ).loc main_arg5) :=
  (W2_of_ne m ρ c main_arg5 (by decide)).trans (W1_arg5 m ρ c)

theorem W1_arg6 : W1 m ρ c (Proc.devRef .tc main_arg6) = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W2_arg6 : W2 m ρ c (Proc.devRef .tc main_arg6) = m ((c : Thread nD τ).loc main_arg6) :=
  (W2_of_ne m ρ c main_arg6 (by decide)).trans (W1_arg6 m ρ c)

theorem W1_arg7 : W1 m ρ c (Proc.devRef .tc main_arg7) = m ((c : Thread nD τ).loc main_arg7) :=
  (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W2_arg7 : W2 m ρ c (Proc.devRef .tc main_arg7) = m ((c : Thread nD τ).loc main_arg7) :=
  (W2_of_ne m ρ c main_arg7 (by decide)).trans (W1_arg7 m ρ c)

theorem W1_arg8 : W1 m ρ c (Proc.devRef .tc main_arg8) = m ((c : Thread nD τ).loc main_arg8) :=
  (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W2_arg8 : W2 m ρ c (Proc.devRef .tc main_arg8) = m ((c : Thread nD τ).loc main_arg8) :=
  (W2_of_ne m ρ c main_arg8 (by decide)).trans (W1_arg8 m ρ c)

theorem W3_arg8 : W3 m ρ c (Proc.devRef .tc main_arg8) = m ((c : Thread nD τ).loc main_arg8) :=
  (W3_of_ne m ρ c main_arg8 (by decide)).trans (W2_arg8 m ρ c)

theorem W4_arg8 : W4 m ρ c (Proc.devRef .tc main_arg8) = m ((c : Thread nD τ).loc main_arg8) :=
  (StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg8 m ρ c)

theorem W1_arg9 : W1 m ρ c (Proc.devRef .tc main_arg9) = m ((c : Thread nD τ).loc main_arg9) :=
  (StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W2_arg9 : W2 m ρ c (Proc.devRef .tc main_arg9) = m ((c : Thread nD τ).loc main_arg9) :=
  (W2_of_ne m ρ c main_arg9 (by decide)).trans (W1_arg9 m ρ c)

theorem W3_arg9 : W3 m ρ c (Proc.devRef .tc main_arg9) = m ((c : Thread nD τ).loc main_arg9) :=
  (W3_of_ne m ρ c main_arg9 (by decide)).trans (W2_arg9 m ρ c)

theorem W4_arg9 : W4 m ρ c (Proc.devRef .tc main_arg9) = m ((c : Thread nD τ).loc main_arg9) :=
  (StableHlo.after_of_forall_not_mem (b := Proc.devRef .tc main_arg9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg9 m ρ c)

theorem W1_arg10 : W1 m ρ c (Proc.devRef .tc main_arg10) = m ((c : Thread nD τ).loc main_arg10) :=
  (StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W2_arg10 : W2 m ρ c (Proc.devRef .tc main_arg10) = m ((c : Thread nD τ).loc main_arg10) :=
  (W2_of_ne m ρ c main_arg10 (by decide)).trans (W1_arg10 m ρ c)

theorem W3_arg10 : W3 m ρ c (Proc.devRef .tc main_arg10) = m ((c : Thread nD τ).loc main_arg10) :=
  (W3_of_ne m ρ c main_arg10 (by decide)).trans (W2_arg10 m ρ c)

theorem W4_arg10 : W4 m ρ c (Proc.devRef .tc main_arg10) = m ((c : Thread nD τ).loc main_arg10) :=
  (StableHlo.after_of_forall_not_mem (b := Proc.devRef .tc main_arg10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg10 m ρ c)

theorem W1_arg11 : W1 m ρ c (Proc.devRef .tc main_arg11) = m ((c : Thread nD τ).loc main_arg11) :=
  (StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W2_arg11 : W2 m ρ c (Proc.devRef .tc main_arg11) = m ((c : Thread nD τ).loc main_arg11) :=
  (W2_of_ne m ρ c main_arg11 (by decide)).trans (W1_arg11 m ρ c)

theorem W3_arg11 : W3 m ρ c (Proc.devRef .tc main_arg11) = m ((c : Thread nD τ).loc main_arg11) :=
  (W3_of_ne m ρ c main_arg11 (by decide)).trans (W2_arg11 m ρ c)

theorem W4_arg11 : W4 m ρ c (Proc.devRef .tc main_arg11) = m ((c : Thread nD τ).loc main_arg11) :=
  (StableHlo.after_of_forall_not_mem (b := Proc.devRef .tc main_arg11) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg11 m ρ c)

theorem W5_arg11 : W5 m ρ c (Proc.devRef .tc main_arg11) = m ((c : Thread nD τ).loc main_arg11) :=
  (W5_of_ne m ρ c main_arg11 (by decide)).trans (W4_arg11 m ρ c)

theorem W1_arg12 : W1 m ρ c (Proc.devRef .tc main_arg12) = m ((c : Thread nD τ).loc main_arg12) :=
  (StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W2_arg12 : W2 m ρ c (Proc.devRef .tc main_arg12) = m ((c : Thread nD τ).loc main_arg12) :=
  (W2_of_ne m ρ c main_arg12 (by decide)).trans (W1_arg12 m ρ c)

theorem W3_arg12 : W3 m ρ c (Proc.devRef .tc main_arg12) = m ((c : Thread nD τ).loc main_arg12) :=
  (W3_of_ne m ρ c main_arg12 (by decide)).trans (W2_arg12 m ρ c)

theorem W4_arg12 : W4 m ρ c (Proc.devRef .tc main_arg12) = m ((c : Thread nD τ).loc main_arg12) :=
  (StableHlo.after_of_forall_not_mem (b := Proc.devRef .tc main_arg12) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg12 m ρ c)

theorem W5_arg12 : W5 m ρ c (Proc.devRef .tc main_arg12) = m ((c : Thread nD τ).loc main_arg12) :=
  (W5_of_ne m ρ c main_arg12 (by decide)).trans (W4_arg12 m ρ c)

theorem W1_arg13 : W1 m ρ c (Proc.devRef .tc main_arg13) = m ((c : Thread nD τ).loc main_arg13) :=
  (StableHlo.after_of_forall_not_mem (b := Proc.devRef .tc main_arg13) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W2_arg13 : W2 m ρ c (Proc.devRef .tc main_arg13) = m ((c : Thread nD τ).loc main_arg13) :=
  (W2_of_ne m ρ c main_arg13 (by decide)).trans (W1_arg13 m ρ c)

theorem W3_arg13 : W3 m ρ c (Proc.devRef .tc main_arg13) = m ((c : Thread nD τ).loc main_arg13) :=
  (W3_of_ne m ρ c main_arg13 (by decide)).trans (W2_arg13 m ρ c)

theorem W4_arg13 : W4 m ρ c (Proc.devRef .tc main_arg13) = m ((c : Thread nD τ).loc main_arg13) :=
  (StableHlo.after_of_forall_not_mem (b := Proc.devRef .tc main_arg13) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg13 m ρ c)

theorem W5_arg13 : W5 m ρ c (Proc.devRef .tc main_arg13) = m ((c : Thread nD τ).loc main_arg13) :=
  (W5_of_ne m ρ c main_arg13 (by decide)).trans (W4_arg13 m ρ c)

theorem W1_arg14 : W1 m ρ c (Proc.devRef .tc main_arg14) = m ((c : Thread nD τ).loc main_arg14) :=
  (StableHlo.after_of_forall_not_mem (b := Proc.devRef .tc main_arg14) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W2_arg14 : W2 m ρ c (Proc.devRef .tc main_arg14) = m ((c : Thread nD τ).loc main_arg14) :=
  (W2_of_ne m ρ c main_arg14 (by decide)).trans (W1_arg14 m ρ c)

theorem W3_arg14 : W3 m ρ c (Proc.devRef .tc main_arg14) = m ((c : Thread nD τ).loc main_arg14) :=
  (W3_of_ne m ρ c main_arg14 (by decide)).trans (W2_arg14 m ρ c)

theorem W4_arg14 : W4 m ρ c (Proc.devRef .tc main_arg14) = m ((c : Thread nD τ).loc main_arg14) :=
  (StableHlo.after_of_forall_not_mem (b := Proc.devRef .tc main_arg14) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg14 m ρ c)

theorem W5_arg14 : W5 m ρ c (Proc.devRef .tc main_arg14) = m ((c : Thread nD τ).loc main_arg14) :=
  (W5_of_ne m ρ c main_arg14 (by decide)).trans (W4_arg14 m ρ c)

theorem W6_arg14 : W6 m ρ c (Proc.devRef .tc main_arg14) = m ((c : Thread nD τ).loc main_arg14) :=
  (W6_of_ne m ρ c main_arg14 (by decide)).trans (W5_arg14 m ρ c)

theorem W1_arg15 : W1 m ρ c (Proc.devRef .tc main_arg15) = m ((c : Thread nD τ).loc main_arg15) :=
  (StableHlo.after_of_forall_not_mem (b := Proc.devRef .tc main_arg15) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W2_arg15 : W2 m ρ c (Proc.devRef .tc main_arg15) = m ((c : Thread nD τ).loc main_arg15) :=
  (W2_of_ne m ρ c main_arg15 (by decide)).trans (W1_arg15 m ρ c)

theorem W3_arg15 : W3 m ρ c (Proc.devRef .tc main_arg15) = m ((c : Thread nD τ).loc main_arg15) :=
  (W3_of_ne m ρ c main_arg15 (by decide)).trans (W2_arg15 m ρ c)

theorem W4_arg15 : W4 m ρ c (Proc.devRef .tc main_arg15) = m ((c : Thread nD τ).loc main_arg15) :=
  (StableHlo.after_of_forall_not_mem (b := Proc.devRef .tc main_arg15) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg15 m ρ c)

theorem W5_arg15 : W5 m ρ c (Proc.devRef .tc main_arg15) = m ((c : Thread nD τ).loc main_arg15) :=
  (W5_of_ne m ρ c main_arg15 (by decide)).trans (W4_arg15 m ρ c)

theorem W6_arg15 : W6 m ρ c (Proc.devRef .tc main_arg15) = m ((c : Thread nD τ).loc main_arg15) :=
  (W6_of_ne m ρ c main_arg15 (by decide)).trans (W5_arg15 m ρ c)

theorem W1_arg16 : W1 m ρ c (Proc.devRef .tc main_arg16) = m ((c : Thread nD τ).loc main_arg16) :=
  (StableHlo.after_of_forall_not_mem (b := Proc.devRef .tc main_arg16) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W2_arg16 : W2 m ρ c (Proc.devRef .tc main_arg16) = m ((c : Thread nD τ).loc main_arg16) :=
  (W2_of_ne m ρ c main_arg16 (by decide)).trans (W1_arg16 m ρ c)

theorem W3_arg16 : W3 m ρ c (Proc.devRef .tc main_arg16) = m ((c : Thread nD τ).loc main_arg16) :=
  (W3_of_ne m ρ c main_arg16 (by decide)).trans (W2_arg16 m ρ c)

theorem W4_arg16 : W4 m ρ c (Proc.devRef .tc main_arg16) = m ((c : Thread nD τ).loc main_arg16) :=
  (StableHlo.after_of_forall_not_mem (b := Proc.devRef .tc main_arg16) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg16 m ρ c)

theorem W5_arg16 : W5 m ρ c (Proc.devRef .tc main_arg16) = m ((c : Thread nD τ).loc main_arg16) :=
  (W5_of_ne m ρ c main_arg16 (by decide)).trans (W4_arg16 m ρ c)

theorem W6_arg16 : W6 m ρ c (Proc.devRef .tc main_arg16) = m ((c : Thread nD τ).loc main_arg16) :=
  (W6_of_ne m ρ c main_arg16 (by decide)).trans (W5_arg16 m ρ c)

theorem W1_arg17 : W1 m ρ c (Proc.devRef .tc main_arg17) = m ((c : Thread nD τ).loc main_arg17) :=
  (StableHlo.after_of_forall_not_mem (b := Proc.devRef .tc main_arg17) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W2_arg17 : W2 m ρ c (Proc.devRef .tc main_arg17) = m ((c : Thread nD τ).loc main_arg17) :=
  (W2_of_ne m ρ c main_arg17 (by decide)).trans (W1_arg17 m ρ c)

theorem W3_arg17 : W3 m ρ c (Proc.devRef .tc main_arg17) = m ((c : Thread nD τ).loc main_arg17) :=
  (W3_of_ne m ρ c main_arg17 (by decide)).trans (W2_arg17 m ρ c)

theorem W4_arg17 : W4 m ρ c (Proc.devRef .tc main_arg17) = m ((c : Thread nD τ).loc main_arg17) :=
  (StableHlo.after_of_forall_not_mem (b := Proc.devRef .tc main_arg17) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg17 m ρ c)

theorem W5_arg17 : W5 m ρ c (Proc.devRef .tc main_arg17) = m ((c : Thread nD τ).loc main_arg17) :=
  (W5_of_ne m ρ c main_arg17 (by decide)).trans (W4_arg17 m ρ c)

theorem W6_arg17 : W6 m ρ c (Proc.devRef .tc main_arg17) = m ((c : Thread nD τ).loc main_arg17) :=
  (W6_of_ne m ρ c main_arg17 (by decide)).trans (W5_arg17 m ρ c)

theorem W1_arg18 : W1 m ρ c (Proc.devRef .tc main_arg18) = m ((c : Thread nD τ).loc main_arg18) :=
  (StableHlo.after_of_forall_not_mem (b := Proc.devRef .tc main_arg18) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W2_arg18 : W2 m ρ c (Proc.devRef .tc main_arg18) = m ((c : Thread nD τ).loc main_arg18) :=
  (W2_of_ne m ρ c main_arg18 (by decide)).trans (W1_arg18 m ρ c)

theorem W3_arg18 : W3 m ρ c (Proc.devRef .tc main_arg18) = m ((c : Thread nD τ).loc main_arg18) :=
  (W3_of_ne m ρ c main_arg18 (by decide)).trans (W2_arg18 m ρ c)

theorem W1_arg19 : W1 m ρ c (Proc.devRef .tc main_arg19) = m ((c : Thread nD τ).loc main_arg19) :=
  (StableHlo.after_of_forall_not_mem (b := Proc.devRef .tc main_arg19) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W2_arg19 : W2 m ρ c (Proc.devRef .tc main_arg19) = m ((c : Thread nD τ).loc main_arg19) :=
  (W2_of_ne m ρ c main_arg19 (by decide)).trans (W1_arg19 m ρ c)

theorem W3_arg19 : W3 m ρ c (Proc.devRef .tc main_arg19) = m ((c : Thread nD τ).loc main_arg19) :=
  (W3_of_ne m ρ c main_arg19 (by decide)).trans (W2_arg19 m ρ c)

theorem W1_arg20 : W1 m ρ c (Proc.devRef .tc main_arg20) = m ((c : Thread nD τ).loc main_arg20) :=
  (StableHlo.after_of_forall_not_mem (b := Proc.devRef .tc main_arg20) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W2_arg20 : W2 m ρ c (Proc.devRef .tc main_arg20) = m ((c : Thread nD τ).loc main_arg20) :=
  (W2_of_ne m ρ c main_arg20 (by decide)).trans (W1_arg20 m ρ c)

theorem W3_arg20 : W3 m ρ c (Proc.devRef .tc main_arg20) = m ((c : Thread nD τ).loc main_arg20) :=
  (W3_of_ne m ρ c main_arg20 (by decide)).trans (W2_arg20 m ρ c)

theorem W1_arg21 : W1 m ρ c (Proc.devRef .tc main_arg21) = m ((c : Thread nD τ).loc main_arg21) :=
  (StableHlo.after_of_forall_not_mem (b := Proc.devRef .tc main_arg21) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem W2_arg21 : W2 m ρ c (Proc.devRef .tc main_arg21) = m ((c : Thread nD τ).loc main_arg21) :=
  (W2_of_ne m ρ c main_arg21 (by decide)).trans (W1_arg21 m ρ c)

theorem W3_arg21 : W3 m ρ c (Proc.devRef .tc main_arg21) = m ((c : Thread nD τ).loc main_arg21) :=
  (W3_of_ne m ρ c main_arg21 (by decide)).trans (W2_arg21 m ρ c)

end Cert.KernelIdeal.Args

end
-- ==== Proof.RefLayers.lean ====
/-
  The reference's dense stages as the network's functions.

  The reference computes each layer on the host as  mean · Wlᵀ + bias + x · Wrᵀ : a transpose of each weight, two
  contractions over the 128 features, the bias broadcast over the rows, two additions — and the rectifier as a
  maximum with a broadcast zero.  Read at an index (row p, column q) each contraction is Σₖ left(p,k)·W(q,k): the
  transpose only swaps the weight's two coordinates.  So each dense stage is `SageNet.lin` (or `affT` for the
  two affine maps of the head) of the stage's row operands, whatever those are; the aggregated means entering a
  layer are left as the stages that compute them.
-/
import proofs.«150708_j2001454760082_1_alg».proof.Proof.Gen.ReferenceIdeal.Read
import proofs.«150708_j2001454760082_1_alg».proof.Proof.Layer

noncomputable section

namespace Cert.ReferenceIdeal.RefValue

open Cert.ReferenceIdeal Cert.ReferenceIdeal.Read SageNet
open Idealize.ShloMosaic Idealize.ShloMosaic.ValueIdx

variable (x0 : (⟨S100000x128, .f32⟩ : BufTy).Contents (Elt Ideal)) (x1 : (⟨S200000x128, .f32⟩ : BufTy).Contents (Elt Ideal))
  (x2 x4 x5 x7 x8 x10 x11 x13 x14 : (⟨S128x128, .f32⟩ : BufTy).Contents (Elt Ideal))
  (x3 x6 x9 x12 x15 : (⟨S128, .f32⟩ : BufTy).Contents (Elt Ideal))
  (x16 : (⟨S8x128, .f32⟩ : BufTy).Contents (Elt Ideal)) (x17 : (⟨S8, .f32⟩ : BufTy).Contents (Elt Ideal))
  (x18 x19 x20 x21 : (⟨S500000, .i32⟩ : BufTy).Contents (Elt Ideal))

/-- Layer 1 on the variant nodes, before its rectifier: the dense combine of the gene→variant means and the variant embeddings. -/
theorem v26_lin :
    val_main_v26 (F := Ideal) x0 x1 x2 x3 x4 x18 x19 = lin (M := 200000) (K := 128) (N := 128) (val_main_v18 (F := Ideal) x0 x18 x19) (x1) x2 x3 x4 := by
  funext i
  obtain ⟨p, q, rfl⟩ : ∃ (p : Fin 200000) (q : Fin 128), i = ix2 p q := ⟨i 0, i 1, eq_ix2 i⟩
  rw [val_main_v26_apply, val_main_v23_apply, val_main_v20_apply, val_main_v22_apply, val_main_v21_apply, val_main_v25_apply]
  have ea1 : ∀ k : Fin 128, lidx_main_v20 (ix2 p q) k = ix2 p k := fun k => funext fun a => Fin.ext (by match a with | ⟨0, _⟩ => rfl | ⟨1, _⟩ => rfl)
  have ea2 : ∀ k : Fin 128, idx_main_v19 (ridx_main_v20 (ix2 p q) k) = ix2 q k := fun k => funext fun a => Fin.ext (by match a with | ⟨0, _⟩ => rfl | ⟨1, _⟩ => rfl)
  have ea3 : idx_main_v21 (idx_main_v22 (ix2 p q)) = ix1 q := funext fun a => Fin.ext (by match a with | ⟨0, _⟩ => rfl)
  have ex1 : ∀ k : Fin 128, lidx_main_v25 (ix2 p q) k = ix2 p k := fun k => funext fun a => Fin.ext (by match a with | ⟨0, _⟩ => rfl | ⟨1, _⟩ => rfl)
  have ex2 : ∀ k : Fin 128, idx_main_v24 (ridx_main_v25 (ix2 p q) k) = ix2 q k := fun k => funext fun a => Fin.ext (by match a with | ⟨0, _⟩ => rfl | ⟨1, _⟩ => rfl)
  simp only [val_main_v19_apply, ea1, ea2, ea3, val_main_v24_apply, ex1, ex2]
  rfl

/-- Layer 1 on the gene nodes, before its rectifier: the dense combine of the variant→gene means and the gene embeddings. -/
theorem v53_lin :
    val_main_v53 (F := Ideal) x0 x1 x5 x6 x7 x20 x21 = lin (M := 100000) (K := 128) (N := 128) (val_main_v45 (F := Ideal) x1 x20 x21) (x0) x5 x6 x7 := by
  funext i
  obtain ⟨p, q, rfl⟩ : ∃ (p : Fin 100000) (q : Fin 128), i = ix2 p q := ⟨i 0, i 1, eq_ix2 i⟩
  rw [val_main_v53_apply, val_main_v50_apply, val_main_v47_apply, val_main_v49_apply, val_main_v48_apply, val_main_v52_apply]
  have ea1 : ∀ k : Fin 128, lidx_main_v47 (ix2 p q) k = ix2 p k := fun k => funext fun a => Fin.ext (by match a with | ⟨0, _⟩ => rfl | ⟨1, _⟩ => rfl)
  have ea2 : ∀ k : Fin 128, idx_main_v46 (ridx_main_v47 (ix2 p q) k) = ix2 q k := fun k => funext fun a => Fin.ext (by match a with | ⟨0, _⟩ => rfl | ⟨1, _⟩ => rfl)
  have ea3 : idx_main_v48 (idx_main_v49 (ix2 p q)) = ix1 q := funext fun a => Fin.ext (by match a with | ⟨0, _⟩ => rfl)
  have ex1 : ∀ k : Fin 128, lidx_main_v52 (ix2 p q) k = ix2 p k := fun k => funext fun a => Fin.ext (by match a with | ⟨0, _⟩ => rfl | ⟨1, _⟩ => rfl)
  have ex2 : ∀ k : Fin 128, idx_main_v51 (ridx_main_v52 (ix2 p q) k) = ix2 q k := fun k => funext fun a => Fin.ext (by match a with | ⟨0, _⟩ => rfl | ⟨1, _⟩ => rfl)
  simp only [val_main_v46_apply, ea1, ea2, ea3, val_main_v51_apply, ex1, ex2]
  rfl

/-- The rectified layer-1 gene features. -/
theorem v54_floor :
    val_main_v54 (F := Ideal) x0 x1 x5 x6 x7 x20 x21 = floorAt (Ideal.ofBits .f32 0x00000000#32) (val_main_v53 (F := Ideal) x0 x1 x5 x6 x7 x20 x21) := by
  funext i
  rw [val_main_v54_apply, val_main_call0_v0_apply, val_main_call0_cst_apply]
  rfl

/-- The rectified layer-1 variant features. -/
theorem v55_floor :
    val_main_v55 (F := Ideal) x0 x1 x2 x3 x4 x18 x19 = floorAt (Ideal.ofBits .f32 0x00000000#32) (val_main_v26 (F := Ideal) x0 x1 x2 x3 x4 x18 x19) := by
  funext i
  rw [val_main_v55_apply, val_main_call1_v0_apply, val_main_call1_cst_apply]
  rfl

/-- Layer 2 on the variant nodes: the dense combine of the means of the layer-1 gene features and the layer-1 variant features. -/
theorem v82_lin :
    val_main_v82 (F := Ideal) x0 x1 x2 x3 x4 x5 x6 x7 x8 x9 x10 x18 x19 x20 x21 = lin (M := 200000) (K := 128) (N := 128) (val_main_v74 (F := Ideal) x0 x1 x5 x6 x7 x18 x19 x20 x21) (val_main_v55 (F := Ideal) x0 x1 x2 x3 x4 x18 x19) x8 x9 x10 := by
  funext i
  obtain ⟨p, q, rfl⟩ : ∃ (p : Fin 200000) (q : Fin 128), i = ix2 p q := ⟨i 0, i 1, eq_ix2 i⟩
  rw [val_main_v82_apply, val_main_v79_apply, val_main_v76_apply, val_main_v78_apply, val_main_v77_apply, val_main_v81_apply]
  have ea1 : ∀ k : Fin 128, lidx_main_v76 (ix2 p q) k = ix2 p k := fun k => funext fun a => Fin.ext (by match a with | ⟨0, _⟩ => rfl | ⟨1, _⟩ => rfl)
  have ea2 : ∀ k : Fin 128, idx_main_v75 (ridx_main_v76 (ix2 p q) k) = ix2 q k := fun k => funext fun a => Fin.ext (by match a with | ⟨0, _⟩ => rfl | ⟨1, _⟩ => rfl)
  have ea3 : idx_main_v77 (idx_main_v78 (ix2 p q)) = ix1 q := funext fun a => Fin.ext (by match a with | ⟨0, _⟩ => rfl)
  have ex1 : ∀ k : Fin 128, lidx_main_v81 (ix2 p q) k = ix2 p k := fun k => funext fun a => Fin.ext (by match a with | ⟨0, _⟩ => rfl | ⟨1, _⟩ => rfl)
  have ex2 : ∀ k : Fin 128, idx_main_v80 (ridx_main_v81 (ix2 p q) k) = ix2 q k := fun k => funext fun a => Fin.ext (by match a with | ⟨0, _⟩ => rfl | ⟨1, _⟩ => rfl)
  simp only [val_main_v75_apply, ea1, ea2, ea3, val_main_v80_apply, ex1, ex2]
  rfl

/-- Layer 2 on the gene nodes: the dense combine of the means of the layer-1 variant features and the layer-1 gene features. -/
theorem v109_lin :
    val_main_v109 (F := Ideal) x0 x1 x2 x3 x4 x5 x6 x7 x11 x12 x13 x18 x19 x20 x21 = lin (M := 100000) (K := 128) (N := 128) (val_main_v101 (F := Ideal) x0 x1 x2 x3 x4 x18 x19 x20 x21) (val_main_v54 (F := Ideal) x0 x1 x5 x6 x7 x20 x21) x11 x12 x13 := by
  funext i
  obtain ⟨p, q, rfl⟩ : ∃ (p : Fin 100000) (q : Fin 128), i = ix2 p q := ⟨i 0, i 1, eq_ix2 i⟩
  rw [val_main_v109_apply, val_main_v106_apply, val_main_v103_apply, val_main_v105_apply, val_main_v104_apply, val_main_v108_apply]
  have ea1 : ∀ k : Fin 128, lidx_main_v103 (ix2 p q) k = ix2 p k := fun k => funext fun a => Fin.ext (by match a with | ⟨0, _⟩ => rfl | ⟨1, _⟩ => rfl)
  have ea2 : ∀ k : Fin 128, idx_main_v102 (ridx_main_v103 (ix2 p q) k) = ix2 q k := fun k => funext fun a => Fin.ext (by match a with | ⟨0, _⟩ => rfl | ⟨1, _⟩ => rfl)
  have ea3 : idx_main_v104 (idx_main_v105 (ix2 p q)) = ix1 q := funext fun a => Fin.ext (by match a with | ⟨0, _⟩ => rfl)
  have ex1 : ∀ k : Fin 128, lidx_main_v108 (ix2 p q) k = ix2 p k := fun k => funext fun a => Fin.ext (by match a with | ⟨0, _⟩ => rfl | ⟨1, _⟩ => rfl)
  have ex2 : ∀ k : Fin 128, idx_main_v107 (ridx_main_v108 (ix2 p q) k) = ix2 q k := fun k => funext fun a => Fin.ext (by match a with | ⟨0, _⟩ => rfl | ⟨1, _⟩ => rfl)
  simp only [val_main_v102_apply, ea1, ea2, ea3, val_main_v107_apply, ex1, ex2]
  rfl

/-- The head's hidden affine map of the layer-2 gene features. -/
theorem v114_aff :
    val_main_v114 (F := Ideal) x0 x1 x2 x3 x4 x5 x6 x7 x11 x12 x13 x14 x15 x18 x19 x20 x21 = affT (M := 100000) (K := 128) (N := 128) (val_main_v109 (F := Ideal) x0 x1 x2 x3 x4 x5 x6 x7 x11 x12 x13 x18 x19 x20 x21) x14 x15 := by
  funext i
  obtain ⟨p, q, rfl⟩ : ∃ (p : Fin 100000) (q : Fin 128), i = ix2 p q := ⟨i 0, i 1, eq_ix2 i⟩
  rw [val_main_v114_apply, val_main_v111_apply, val_main_v113_apply, val_main_v112_apply]
  have ea1 : ∀ k : Fin 128, lidx_main_v111 (ix2 p q) k = ix2 p k := fun k => funext fun a => Fin.ext (by match a with | ⟨0, _⟩ => rfl | ⟨1, _⟩ => rfl)
  have ea2 : ∀ k : Fin 128, idx_main_v110 (ridx_main_v111 (ix2 p q) k) = ix2 q k := fun k => funext fun a => Fin.ext (by match a with | ⟨0, _⟩ => rfl | ⟨1, _⟩ => rfl)
  have ea3 : idx_main_v112 (idx_main_v113 (ix2 p q)) = ix1 q := funext fun a => Fin.ext (by match a with | ⟨0, _⟩ => rfl)
  simp only [val_main_v110_apply, ea1, ea2, ea3]
  rfl

/-- The head's rectified hidden features. -/
theorem v115_floor :
    val_main_v115 (F := Ideal) x0 x1 x2 x3 x4 x5 x6 x7 x11 x12 x13 x14 x15 x18 x19 x20 x21 = floorAt (Ideal.ofBits .f32 0x00000000#32) (val_main_v114 (F := Ideal) x0 x1 x2 x3 x4 x5 x6 x7 x11 x12 x13 x14 x15 x18 x19 x20 x21) := by
  funext i
  rw [val_main_v115_apply, val_main_call2_v0_apply, val_main_call2_cst_apply]
  rfl

/-- The head's output affine map of the rectified hidden features. -/
theorem v120_aff :
    val_main_v120 (F := Ideal) x0 x1 x2 x3 x4 x5 x6 x7 x11 x12 x13 x14 x15 x16 x17 x18 x19 x20 x21 = affT (M := 100000) (K := 128) (N := 8) (val_main_v115 (F := Ideal) x0 x1 x2 x3 x4 x5 x6 x7 x11 x12 x13 x14 x15 x18 x19 x20 x21) x16 x17 := by
  funext i
  obtain ⟨p, q, rfl⟩ : ∃ (p : Fin 100000) (q : Fin 8), i = ix2 p q := ⟨i 0, i 1, eq_ix2 i⟩
  rw [val_main_v120_apply, val_main_v117_apply, val_main_v119_apply, val_main_v118_apply]
  have ea1 : ∀ k : Fin 128, lidx_main_v117 (ix2 p q) k = ix2 p k := fun k => funext fun a => Fin.ext (by match a with | ⟨0, _⟩ => rfl | ⟨1, _⟩ => rfl)
  have ea2 : ∀ k : Fin 128, idx_main_v116 (ridx_main_v117 (ix2 p q) k) = ix2 q k := fun k => funext fun a => Fin.ext (by match a with | ⟨0, _⟩ => rfl | ⟨1, _⟩ => rfl)
  have ea3 : idx_main_v118 (idx_main_v119 (ix2 p q)) = ix1 q := funext fun a => Fin.ext (by match a with | ⟨0, _⟩ => rfl)
  simp only [val_main_v116_apply, ea1, ea2, ea3]
  rfl

/-- The head's output is `SageNet.head` of the layer-2 gene features. -/
theorem v120_head :
    val_main_v120 (F := Ideal) x0 x1 x2 x3 x4 x5 x6 x7 x11 x12 x13 x14 x15 x16 x17 x18 x19 x20 x21 = head (M := 100000) (K := 128) (N := 128) (C := 8) (Ideal.ofBits .f32 0x00000000#32) (val_main_v109 (F := Ideal) x0 x1 x2 x3 x4 x5 x6 x7 x11 x12 x13 x18 x19 x20 x21) x14 x15 x16 x17 := by
  rw [v120_aff, v115_floor, v114_aff]
  rfl

end Cert.ReferenceIdeal.RefValue

end
-- ==== Proof.KChain.lean ====
/-
  The kernel program's buffers, segment by segment, as the reference's stages.

  Both programs compute the same aggregation on the host — gather the source row of every edge, scatter-add
  the rows by target node, divide by the in-degree floored at one — with the same operations in the same order,
  so each mean array the kernel program hands to a kernel IS the reference's corresponding stage of the same
  operands (read off the host stretch; no arithmetic is involved).  Each kernel leaves in its output array the
  dense combine of the arrays it was handed (the per-region modules), and that is the reference's dense stage
  of those same arrays (the reference-side module).  Chaining the seven segments, the three results of the
  kernel program are the reference's three result stages of the launch arguments.
-/
import proofs.«150708_j2001454760082_1_alg».proof.Proof.KRegion0
import proofs.«150708_j2001454760082_1_alg».proof.Proof.KRegion1
import proofs.«150708_j2001454760082_1_alg».proof.Proof.KRegion2
import proofs.«150708_j2001454760082_1_alg».proof.Proof.KRegion3
import proofs.«150708_j2001454760082_1_alg».proof.Proof.KRegion4
import proofs.«150708_j2001454760082_1_alg».proof.Proof.KArgs
import proofs.«150708_j2001454760082_1_alg».proof.Proof.RefLayers
import Idealize.ShloMosaic.Lib.StableHlo.Run
import Idealize.ShloMosaic.PureOps.Ideal

set_option maxRecDepth 16384
set_option maxHeartbeats 8000000

noncomputable section

namespace Cert.KernelIdeal.Chain

open Cert.KernelIdeal Cert.KernelIdeal.Gen Cert.KernelIdeal.Tile SageNet
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## First host stretch: the layer-1 means -/

/-- The gene→variant means handed to the first kernel are the reference's stage of the same three arguments. -/
theorem W1_v18 : (W1 m ρ c (Proc.devRef .tc main_v18) : S200000x128.Idx → EReal) = Cert.ReferenceIdeal.Read.val_main_v18 (F := Ideal) (m ((c : Thread nD τ).loc main_arg0)) (m ((c : Thread nD τ).loc main_arg18)) (m ((c : Thread nD τ).loc main_arg19)) := by
  show StableHlo.after hostOps0 (W0 m ρ c) (Proc.devRef .tc main_v18) = _
  after_results_simp <;> rfl

/-- The variant→gene means handed to the second kernel. -/
theorem W1_v37 : (W1 m ρ c (Proc.devRef .tc main_v37) : S100000x128.Idx → EReal) = Cert.ReferenceIdeal.Read.val_main_v45 (F := Ideal) (m ((c : Thread nD τ).loc main_arg1)) (m ((c : Thread nD τ).loc main_arg20)) (m ((c : Thread nD τ).loc main_arg21)) := by
  show StableHlo.after hostOps0 (W0 m ρ c) (Proc.devRef .tc main_v37) = _
  after_results_simp <;> rfl

/-! ## The two layer-1 kernels -/

/-- The first kernel's output: the rectified layer-1 variant features. -/
theorem W2_v38 : (W2 m ρ c (Proc.devRef .tc main_v38) : S200000x128.Idx → EReal) = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg18)) (m ((c : Thread nD τ).loc main_arg19)) := by
  refine (W2_arr m ρ c 5).trans ((Region0.final (V1 m ρ) c).trans ?_)
  show floorAt zeroWord (lin (M := 200000) (K := 128) (N := 128) (W1 m ρ c (Proc.devRef .tc main_v18) : S200000x128.Idx → EReal) (W1 m ρ c (Proc.devRef .tc main_arg1) : S200000x128.Idx → EReal)
    (W1 m ρ c (Proc.devRef .tc main_arg2) : S128x128.Idx → EReal) (W1 m ρ c (Proc.devRef .tc main_arg3) : S128.Idx → EReal) (W1 m ρ c (Proc.devRef .tc main_arg4) : S128x128.Idx → EReal)) = _
  rw [W1_v18, Args.W1_arg1 m ρ c, Args.W1_arg2 m ρ c, Args.W1_arg3 m ρ c, Args.W1_arg4 m ρ c, Cert.ReferenceIdeal.RefValue.v55_floor, Cert.ReferenceIdeal.RefValue.v26_lin]

theorem W2_v37 : (W2 m ρ c (Proc.devRef .tc main_v37) : S100000x128.Idx → EReal) = Cert.ReferenceIdeal.Read.val_main_v45 (F := Ideal) (m ((c : Thread nD τ).loc main_arg1)) (m ((c : Thread nD τ).loc main_arg20)) (m ((c : Thread nD τ).loc main_arg21)) :=
  (W2_of_ne m ρ c main_v37 (by decide)).trans (W1_v37 m ρ c)

/-- The second kernel's output: the rectified layer-1 gene features. -/
theorem W3_v39 : (W3 m ρ c (Proc.devRef .tc main_v39) : S100000x128.Idx → EReal) = Cert.ReferenceIdeal.Read.val_main_v54 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg20)) (m ((c : Thread nD τ).loc main_arg21)) := by
  refine (W3_arr m ρ c 5).trans ((Region1.final (V2 m ρ) c).trans ?_)
  show floorAt zeroWord (lin (M := 100000) (K := 128) (N := 128) (W2 m ρ c (Proc.devRef .tc main_v37) : S100000x128.Idx → EReal) (W2 m ρ c (Proc.devRef .tc main_arg0) : S100000x128.Idx → EReal)
    (W2 m ρ c (Proc.devRef .tc main_arg5) : S128x128.Idx → EReal) (W2 m ρ c (Proc.devRef .tc main_arg6) : S128.Idx → EReal) (W2 m ρ c (Proc.devRef .tc main_arg7) : S128x128.Idx → EReal)) = _
  rw [W2_v37, Args.W2_arg0 m ρ c, Args.W2_arg5 m ρ c, Args.W2_arg6 m ρ c, Args.W2_arg7 m ρ c, Cert.ReferenceIdeal.RefValue.v54_floor, Cert.ReferenceIdeal.RefValue.v53_lin]

theorem W3_v38 : (W3 m ρ c (Proc.devRef .tc main_v38) : S200000x128.Idx → EReal) = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg18)) (m ((c : Thread nD τ).loc main_arg19)) :=
  (W3_of_ne m ρ c main_v38 (by decide)).trans (W2_v38 m ρ c)

/-! ## Second host stretch: the layer-2 means of the layer-1 features -/

/-- The means of the layer-1 gene features over the gene→variant edges. -/
theorem W4_v58 : (W4 m ρ c (Proc.devRef .tc main_v58) : S200000x128.Idx → EReal) = Cert.ReferenceIdeal.Read.val_main_v74 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg18)) (m ((c : Thread nD τ).loc main_arg19)) (m ((c : Thread nD τ).loc main_arg20)) (m ((c : Thread nD τ).loc main_arg21)) := by
  show StableHlo.after hostOps2 (W3 m ρ c) (Proc.devRef .tc main_v58) = _
  after_results_simp
  rw [W3_v39 m ρ c, Args.W3_arg18 m ρ c, Args.W3_arg19 m ρ c]
  rfl

/-- The means of the layer-1 variant features over the variant→gene edges. -/
theorem W4_v77 : (W4 m ρ c (Proc.devRef .tc main_v77) : S100000x128.Idx → EReal) = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg18)) (m ((c : Thread nD τ).loc main_arg19)) (m ((c : Thread nD τ).loc main_arg20)) (m ((c : Thread nD τ).loc main_arg21)) := by
  show StableHlo.after hostOps2 (W3 m ρ c) (Proc.devRef .tc main_v77) = _
  after_results_simp
  rw [W3_v38 m ρ c, Args.W3_arg20 m ρ c, Args.W3_arg21 m ρ c]
  rfl

theorem W4_v38 : (W4 m ρ c (Proc.devRef .tc main_v38) : S200000x128.Idx → EReal) = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg18)) (m ((c : Thread nD τ).loc main_arg19)) :=
  (StableHlo.after_of_forall_not_mem (b := Proc.devRef .tc main_v38) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_v38 m ρ c)

theorem W4_v39 : (W4 m ρ c (Proc.devRef .tc main_v39) : S100000x128.Idx → EReal) = Cert.ReferenceIdeal.Read.val_main_v54 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg20)) (m ((c : Thread nD τ).loc main_arg21)) :=
  (StableHlo.after_of_forall_not_mem (b := Proc.devRef .tc main_v39) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_v39 m ρ c)

/-! ## The two layer-2 kernels and the head -/

/-- The third kernel's output: the layer-2 variant features, the program's second result. -/
theorem W5_v78 : (W5 m ρ c (Proc.devRef .tc main_v78) : S200000x128.Idx → EReal) = Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg18)) (m ((c : Thread nD τ).loc main_arg19)) (m ((c : Thread nD τ).loc main_arg20)) (m ((c : Thread nD τ).loc main_arg21)) := by
  refine (W5_arr m ρ c 5).trans ((Region2.final (V4 m ρ) c).trans ?_)
  show lin (M := 200000) (K := 128) (N := 128) (W4 m ρ c (Proc.devRef .tc main_v58) : S200000x128.Idx → EReal) (W4 m ρ c (Proc.devRef .tc main_v38) : S200000x128.Idx → EReal)
    (W4 m ρ c (Proc.devRef .tc main_arg8) : S128x128.Idx → EReal) (W4 m ρ c (Proc.devRef .tc main_arg9) : S128.Idx → EReal) (W4 m ρ c (Proc.devRef .tc main_arg10) : S128x128.Idx → EReal) = _
  rw [W4_v58, W4_v38, Args.W4_arg8 m ρ c, Args.W4_arg9 m ρ c, Args.W4_arg10 m ρ c, Cert.ReferenceIdeal.RefValue.v82_lin]

theorem W5_v77 : (W5 m ρ c (Proc.devRef .tc main_v77) : S100000x128.Idx → EReal) = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg18)) (m ((c : Thread nD τ).loc main_arg19)) (m ((c : Thread nD τ).loc main_arg20)) (m ((c : Thread nD τ).loc main_arg21)) :=
  (W5_of_ne m ρ c main_v77 (by decide)).trans (W4_v77 m ρ c)

theorem W5_v39 : (W5 m ρ c (Proc.devRef .tc main_v39) : S100000x128.Idx → EReal) = Cert.ReferenceIdeal.Read.val_main_v54 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg20)) (m ((c : Thread nD τ).loc main_arg21)) :=
  (W5_of_ne m ρ c main_v39 (by decide)).trans (W4_v39 m ρ c)

/-- The fourth kernel's output: the layer-2 gene features, the program's first result. -/
theorem W6_v79 : (W6 m ρ c (Proc.devRef .tc main_v79) : S100000x128.Idx → EReal) = Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg18)) (m ((c : Thread nD τ).loc main_arg19)) (m ((c : Thread nD τ).loc main_arg20)) (m ((c : Thread nD τ).loc main_arg21)) := by
  refine (W6_arr m ρ c 5).trans ((Region3.final (V5 m ρ) c).trans ?_)
  show lin (M := 100000) (K := 128) (N := 128) (W5 m ρ c (Proc.devRef .tc main_v77) : S100000x128.Idx → EReal) (W5 m ρ c (Proc.devRef .tc main_v39) : S100000x128.Idx → EReal)
    (W5 m ρ c (Proc.devRef .tc main_arg11) : S128x128.Idx → EReal) (W5 m ρ c (Proc.devRef .tc main_arg12) : S128.Idx → EReal) (W5 m ρ c (Proc.devRef .tc main_arg13) : S128x128.Idx → EReal) = _
  rw [W5_v77, W5_v39, Args.W5_arg11 m ρ c, Args.W5_arg12 m ρ c, Args.W5_arg13 m ρ c, Cert.ReferenceIdeal.RefValue.v109_lin]

/-- The head kernel's output, the program's third result. -/
theorem W7_v80 : (W7 m ρ c (Proc.devRef .tc main_v80) : S100000x8.Idx → EReal) = Cert.ReferenceIdeal.Read.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  refine (W7_arr m ρ c 5).trans ((Region4.final (V6 m ρ) c).trans ?_)
  show head (M := 100000) (K := 128) (N := 128) (C := 8) zeroWord (W6 m ρ c (Proc.devRef .tc main_v79) : S100000x128.Idx → EReal) (W6 m ρ c (Proc.devRef .tc main_arg14) : S128x128.Idx → EReal)
    (W6 m ρ c (Proc.devRef .tc main_arg15) : S128.Idx → EReal) (W6 m ρ c (Proc.devRef .tc main_arg16) : S8x128.Idx → EReal) (W6 m ρ c (Proc.devRef .tc main_arg17) : S8.Idx → EReal) = _
  rw [W6_v79, Args.W6_arg14 m ρ c, Args.W6_arg15 m ρ c, Args.W6_arg16 m ρ c, Args.W6_arg17 m ρ c, Cert.ReferenceIdeal.RefValue.v120_head]

/-- The first result at the end: the head kernel only reads it. -/
theorem W7_v79 : (W7 m ρ c (Proc.devRef .tc main_v79) : S100000x128.Idx → EReal) = Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg18)) (m ((c : Thread nD τ).loc main_arg19)) (m ((c : Thread nD τ).loc main_arg20)) (m ((c : Thread nD τ).loc main_arg21)) :=
  ((W7_arr m ρ c 0).trans (((dat4 (V6 m ρ) c).arrAt_in 0 rfl _).trans (A_eq4 (V6 m ρ) c 0))).trans (W6_v79 m ρ c)

/-- The second result at the end: the last two kernels leave it alone. -/
theorem W7_v78 : (W7 m ρ c (Proc.devRef .tc main_v78) : S200000x128.Idx → EReal) = Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg18)) (m ((c : Thread nD τ).loc main_arg19)) (m ((c : Thread nD τ).loc main_arg20)) (m ((c : Thread nD τ).loc main_arg21)) :=
  (W7_of_ne m ρ c main_v78 (by decide)).trans ((W6_of_ne m ρ c main_v78 (by decide)).trans (W5_v78 m ρ c))

end Cert.KernelIdeal.Chain

end
-- ==== Proof.lean ====
/-
  Two SAGE layers over a gene/variant graph and a two-layer head, tiled kernels against the plain reference.

  Both programs aggregate on the host with the same gather / scatter-add / divide operations, so the mean arrays
  they feed to the dense part are the same functions of the arguments.  The dense part of a layer is
      (mean · Wlᵀ + bias) + x · Wrᵀ        (then a maximum with zero in layer 1),
  which the kernels compute 2000 rows at a time with the matrix unit contracting the feature axis of both
  operands, and the reference computes in one piece with a transposed weight and a host contraction.  Over the
  extended reals the two are the same sums in the same order and grouping, entry by entry, and a block of rows of
  the result depends on that block of rows only; so the tiles a kernel writes back are the blocks of the
  reference's array and cover it.  No law beyond this re-indexing is needed, and finiteness of the inputs is
  never used.  The three frames are the generated frame runs; the idealization ledger is empty.
-/
import proofs.«150708_j2001454760082_1_alg».proof.Defs
import proofs.«150708_j2001454760082_1_alg».proof.Proof.Gen.Kernel
import proofs.«150708_j2001454760082_1_alg».proof.Proof.Gen.Kernel.Skeleton
import proofs.«150708_j2001454760082_1_alg».proof.Proof.Gen.Kernel.Launch
import proofs.«150708_j2001454760082_1_alg».proof.Proof.Gen.Kernel.Points
import proofs.«150708_j2001454760082_1_alg».proof.Proof.Gen.Kernel.Frame
import proofs.«150708_j2001454760082_1_alg».proof.Proof.Gen.KernelIdeal
import proofs.«150708_j2001454760082_1_alg».proof.Proof.Gen.KernelIdeal.Skeleton
import proofs.«150708_j2001454760082_1_alg».proof.Proof.Gen.KernelIdeal.Launch
import proofs.«150708_j2001454760082_1_alg».proof.Proof.Gen.KernelIdeal.Points
import proofs.«150708_j2001454760082_1_alg».proof.Proof.Gen.KernelIdeal.Frame
import proofs.«150708_j2001454760082_1_alg».proof.Proof.Gen.ReferenceIdeal
import proofs.«150708_j2001454760082_1_alg».proof.Proof.Gen.ReferenceIdeal.Run
import proofs.«150708_j2001454760082_1_alg».proof.Proof.Gen.ReferenceIdeal.Read
import proofs.«150708_j2001454760082_1_alg».proof.Proof.Gen.Pre_finite_inputs
import proofs.«150708_j2001454760082_1_alg».proof.Proof.KRun
import proofs.«150708_j2001454760082_1_alg».proof.Proof.KChain
import Idealize.ShloMosaic.Adequacy
import Idealize.ShloMosaic.Init

set_option maxRecDepth 16384
set_option maxHeartbeats 4000000

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The kernel program ends with its three results at the reference's result stages of the launch arguments, and
    the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v79) = Cert.ReferenceIdeal.Read.val_main_v109 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))
        ∧ r.2.mem ((c.tc : Thread Cert.KernelIdeal.nD Cert.KernelIdeal.τ).loc Cert.KernelIdeal.main_v78) = Cert.ReferenceIdeal.Read.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))
        ∧ r.2.mem ((c.tc : Thread Cert.KernelIdeal.nD Cert.KernelIdeal.τ).loc Cert.KernelIdeal.main_v80) = Cert.ReferenceIdeal.Read.val_main_v120 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
        ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
        ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
        ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
        ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)) :=
  (θ_run Cert.KernelIdeal.defs _ _).mono (fun r h c =>
    ⟨(Cert.KernelIdeal.Whole.run_at m ρ Cert.KernelIdeal.main_v79 (by decide) h c).trans (Cert.KernelIdeal.Chain.W7_v79 m ρ c),
     (Cert.KernelIdeal.Whole.run_at m ρ Cert.KernelIdeal.main_v78 (by decide) h c).trans (Cert.KernelIdeal.Chain.W7_v78 m ρ c),
     (Cert.KernelIdeal.Whole.run_at m ρ Cert.KernelIdeal.main_v80 (by decide) h c).trans (Cert.KernelIdeal.Chain.W7_v80 m ρ c),
     (Cert.KernelIdeal.Whole.run_at m ρ Cert.KernelIdeal.main_arg0 (by decide) h c).trans (Cert.KernelIdeal.Gen.W7_main_arg0 m ρ c),
     (Cert.KernelIdeal.Whole.run_at m ρ Cert.KernelIdeal.main_arg1 (by decide) h c).trans (Cert.KernelIdeal.Gen.W7_main_arg1 m ρ c),
     (Cert.KernelIdeal.Whole.run_at m ρ Cert.KernelIdeal.main_arg2 (by decide) h c).trans (Cert.KernelIdeal.Gen.W7_main_arg2 m ρ c),
     (Cert.KernelIdeal.Whole.run_at m ρ Cert.KernelIdeal.main_arg3 (by decide) h c).trans (Cert.KernelIdeal.Gen.W7_main_arg3 m ρ c),
     (Cert.KernelIdeal.Whole.run_at m ρ Cert.KernelIdeal.main_arg4 (by decide) h c).trans (Cert.KernelIdeal.Gen.W7_main_arg4 m ρ c),
     (Cert.KernelIdeal.Whole.run_at m ρ Cert.KernelIdeal.main_arg5 (by decide) h c).trans (Cert.KernelIdeal.Gen.W7_main_arg5 m ρ c),
     (Cert.KernelIdeal.Whole.run_at m ρ Cert.KernelIdeal.main_arg6 (by decide) h c).trans (Cert.KernelIdeal.Gen.W7_main_arg6 m ρ c),
     (Cert.KernelIdeal.Whole.run_at m ρ Cert.KernelIdeal.main_arg7 (by decide) h c).trans (Cert.KernelIdeal.Gen.W7_main_arg7 m ρ c),
     (Cert.KernelIdeal.Whole.run_at m ρ Cert.KernelIdeal.main_arg8 (by decide) h c).trans (Cert.KernelIdeal.Gen.W7_main_arg8 m ρ c),
     (Cert.KernelIdeal.Whole.run_at m ρ Cert.KernelIdeal.main_arg9 (by decide) h c).trans (Cert.KernelIdeal.Gen.W7_main_arg9 m ρ c),
     (Cert.KernelIdeal.Whole.run_at m ρ Cert.KernelIdeal.main_arg10 (by decide) h c).trans (Cert.KernelIdeal.Gen.W7_main_arg10 m ρ c),
     (Cert.KernelIdeal.Whole.run_at m ρ Cert.KernelIdeal.main_arg11 (by decide) h c).trans (Cert.KernelIdeal.Gen.W7_main_arg11 m ρ c),
     (Cert.KernelIdeal.Whole.run_at m ρ Cert.KernelIdeal.main_arg12 (by decide) h c).trans (Cert.KernelIdeal.Gen.W7_main_arg12 m ρ c),
     (Cert.KernelIdeal.Whole.run_at m ρ Cert.KernelIdeal.main_arg13 (by decide) h c).trans (Cert.KernelIdeal.Gen.W7_main_arg13 m ρ c),
     (Cert.KernelIdeal.Whole.run_at m ρ Cert.KernelIdeal.main_arg14 (by decide) h c).trans (Cert.KernelIdeal.Gen.W7_main_arg14 m ρ c),
     (Cert.KernelIdeal.Whole.run_at m ρ Cert.KernelIdeal.main_arg15 (by decide) h c).trans (Cert.KernelIdeal.Gen.W7_main_arg15 m ρ c),
     (Cert.KernelIdeal.Whole.run_at m ρ Cert.KernelIdeal.main_arg16 (by decide) h c).trans (Cert.KernelIdeal.Gen.W7_main_arg16 m ρ c),
     (Cert.KernelIdeal.Whole.run_at m ρ Cert.KernelIdeal.main_arg17 (by decide) h c).trans (Cert.KernelIdeal.Gen.W7_main_arg17 m ρ c),
     (Cert.KernelIdeal.Whole.run_at m ρ Cert.KernelIdeal.main_arg18 (by decide) h c).trans (Cert.KernelIdeal.Gen.W7_main_arg18 m ρ c),
     (Cert.KernelIdeal.Whole.run_at m ρ Cert.KernelIdeal.main_arg19 (by decide) h c).trans (Cert.KernelIdeal.Gen.W7_main_arg19 m ρ c),
     (Cert.KernelIdeal.Whole.run_at m ρ Cert.KernelIdeal.main_arg20 (by decide) h c).trans (Cert.KernelIdeal.Gen.W7_main_arg20 m ρ c),
     (Cert.KernelIdeal.Whole.run_at m ρ Cert.KernelIdeal.main_arg21 (by decide) h c).trans (Cert.KernelIdeal.Gen.W7_main_arg21 m ρ c)⟩)
    (Cert.KernelIdeal.Whole.run_mem m ρ)

/-- From memories that agree on the arguments the two programs end with equal results: the kernel program's are
    the reference's result stages of its own arguments (`kernel_run`), the reference's are those stages of ITS
    arguments (its generated run), and the arguments agree. -/
theorem algebraic : Cert.algebraic_KernelIdeal_ReferenceIdeal := by
  intro m ρ m' ρ' _ hagree
  refine ⟨_, _, _, kernel_run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14, a15, a16, a17, a18, a19, a20, a21⟩ := hagree c
  refine ⟨(h c).1.trans ?_, (h c).2.1.trans ?_, (h c).2.2.1.trans ?_, (h c).2.2.2⟩
  · rw [Cert.ReferenceIdeal.Read.val_main_v109_eq, a0, a1, a2, a3, a4, a5, a6, a7, a11, a12, a13, a18, a19, a20, a21]
  · rw [Cert.ReferenceIdeal.Read.val_main_v82_eq, a0, a1, a2, a3, a4, a5, a6, a7, a8, a9, a10, a18, a19, a20, a21]
  · rw [Cert.ReferenceIdeal.Read.val_main_v120_eq, a0, a1, a2, a3, a4, a5, a6, a7, a11, a12, a13, a14, a15, a16, a17, a18, a19, a20, a21]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
